-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S14952x256 : Shape := ⟨2, ![14952, 256]⟩
abbrev S1346x256 : Shape := ⟨2, ![1346, 256]⟩
abbrev S16384 : Shape := ⟨1, ![16384]⟩
abbrev S16384x10x2 : Shape := ⟨3, ![16384, 10, 2]⟩
abbrev S16384x10x3 : Shape := ⟨3, ![16384, 10, 3]⟩
abbrev S_ : Shape := ⟨0, ![]⟩

class Facts : Prop where
  bcast_S_S14952x256 : S_.BroadcastsInDim S14952x256 (![] : Fin 0 → Fin S14952x256.rank)
  reducesTo_S14952x256_S_d0_1 : S14952x256.ReducesTo [0, 1] S_
  h_S_ : 0 < S_.numel
  bcast_S_S1346x256 : S_.BroadcastsInDim S1346x256 (![] : Fin 0 → Fin S1346x256.rank)
  reducesTo_S1346x256_S_d0_1 : S1346x256.ReducesTo [0, 1] S_

variable [Facts]

def fn {F : FTy → Type} [FloatOps F] (main_arg0 : FVec F S14952x256 .f32) (main_arg1 : FVec F S1346x256 .f32) (main_arg2 : IVec S16384 32) (main_arg3 : IVec S16384 32) (main_arg4 : IVec S16384 32) (main_arg5 : IVec S16384 32) (main_arg6 : IVec S16384 32) (main_arg7 : IVec S16384 32) (main_arg8 : IVec S16384x10x2 32) (main_arg9 : IVec S16384x10x3 32) : IVec S_ 1 :=
  let main_v0 : FVec F S14952x256 .f32 := Host.absf main_arg0
  let main_cst : FVec F S_ .f32 := constant S_ .f32 0x7F800000#32
  let main_v1 : FVec F S14952x256 .f32 := broadcastInDim S14952x256 ![] bcast_S_S14952x256 main_cst
  let main_v2 : IVec S14952x256 1 := cmpf .olt main_v0 main_v1
  let main_c : IVec S_ 1 := constantI S_ 1 1#1
  let main_v3 : IVec S_ 1 := (fun x v => Host.reduce IntOp.andi x v reducesTo_S14952x256_S_d0_1 h_S_) main_v2 main_c
  let main_v4 : FVec F S1346x256 .f32 := Host.absf main_arg1
  let main_cst_0 : FVec F S_ .f32 := constant S_ .f32 0x7F800000#32
  let main_v5 : FVec F S1346x256 .f32 := broadcastInDim S1346x256 ![] bcast_S_S1346x256 main_cst_0
  let main_v6 : IVec S1346x256 1 := cmpf .olt main_v4 main_v5
  let main_c_1 : IVec S_ 1 := constantI S_ 1 1#1
  let main_v7 : IVec S_ 1 := (fun x v => Host.reduce IntOp.andi x v reducesTo_S1346x256_S_d0_1 h_S_) main_v6 main_c_1
  let main_v8 : IVec S_ 1 := andi main_v3 main_v7
  main_v8
-- ==== Kernel.lean ====
abbrev S14952x256 : Shape := ⟨2, ![14952, 256]⟩
abbrev S1346x256 : Shape := ⟨2, ![1346, 256]⟩
abbrev S16384 : Shape := ⟨1, ![16384]⟩
abbrev S16384x10x2 : Shape := ⟨3, ![16384, 10, 2]⟩
abbrev S16384x10x3 : Shape := ⟨3, ![16384, 10, 3]⟩
abbrev S_ : Shape := ⟨0, ![]⟩
abbrev S16384x1 : Shape := ⟨2, ![16384, 1]⟩
abbrev S16384x256 : Shape := ⟨2, ![16384, 256]⟩
abbrev S16384x10x1 : Shape := ⟨3, ![16384, 10, 1]⟩
abbrev S16384x10 : Shape := ⟨2, ![16384, 10]⟩
abbrev S16384x10x256 : Shape := ⟨3, ![16384, 10, 256]⟩
abbrev S16384x10x3x1 : Shape := ⟨4, ![16384, 10, 3, 1]⟩
abbrev S16384x10x3x256 : Shape := ⟨4, ![16384, 10, 3, 256]⟩
abbrev S256x1 : Shape := ⟨2, ![256, 1]⟩
abbrev S256x256 : Shape := ⟨2, ![256, 256]⟩
abbrev S256x10x256 : Shape := ⟨3, ![256, 10, 256]⟩
abbrev S256x1x256 : Shape := ⟨3, ![256, 1, 256]⟩
abbrev S256x10 : Shape := ⟨2, ![256, 10]⟩
abbrev S256 : Shape := ⟨1, ![256]⟩
abbrev S256x10x1 : Shape := ⟨3, ![256, 10, 1]⟩

abbrev nBuf : Space → Nat
  | .hbm => 107
  | .vmem => 18
  | .smem => 0
  | _ => 0

abbrev bufTy : (tb : Table) → Fin (tcTables nBuf tb) → BufTy
  | .hbm, ⟨0, _⟩ => ⟨S14952x256, .f32⟩
  | .hbm, ⟨1, _⟩ => ⟨S1346x256, .f32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384x10x2, .i32⟩
  | .hbm, ⟨9, _⟩ => ⟨S16384x10x3, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S16384x256, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x256, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x256, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S16384x256, .f32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S16384x256, .f32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S16384x1, .i32⟩
  | .hbm, ⟨63, _⟩ => ⟨S16384x256, .f32⟩
  | .hbm, ⟨64, _⟩ => ⟨S16384x10x1, .i32⟩
  | .hbm, ⟨65, _⟩ => ⟨S16384x10, .i32⟩
  | .hbm, ⟨66, _⟩ => ⟨S_, .i32⟩
  | .hbm, ⟨67, _⟩ => ⟨S16384x10, .i32⟩
  | .hbm, ⟨68, _⟩ => ⟨S16384x10, .i1⟩
  | .hbm, ⟨69, _⟩ => ⟨S_, .i32⟩
  | .hbm, ⟨70, _⟩ => ⟨S16384x10, .i32⟩
  | .hbm, ⟨71, _⟩ => ⟨S16384x10, .i32⟩
  | .hbm, ⟨72, _⟩ => ⟨S16384x10, .i32⟩
  | .hbm, ⟨73, _⟩ => ⟨S16384x10x1, .i32⟩
  | .hbm, ⟨74, _⟩ => ⟨S16384x10x256, .f32⟩
  | .hbm, ⟨75, _⟩ => ⟨S16384x10x1, .i32⟩
  | .hbm, ⟨76, _⟩ => ⟨S16384x10, .i32⟩
  | .hbm, ⟨77, _⟩ => ⟨S_, .i32⟩
  | .hbm, ⟨78, _⟩ => ⟨S16384x10, .i32⟩
  | .hbm, ⟨79, _⟩ => ⟨S16384x10, .i1⟩
  | .hbm, ⟨80, _⟩ => ⟨S_, .i32⟩
  | .hbm, ⟨81, _⟩ => ⟨S16384x10, .i32⟩
  | .hbm, ⟨82, _⟩ => ⟨S16384x10, .i32⟩
  | .hbm, ⟨83, _⟩ => ⟨S16384x10, .i32⟩
  | .hbm, ⟨84, _⟩ => ⟨S16384x10x1, .i32⟩
  | .hbm, ⟨85, _⟩ => ⟨S16384x10x256, .f32⟩
  | .hbm, ⟨86, _⟩ => ⟨S16384x10x256, .f32⟩
  | .hbm, ⟨87, _⟩ => ⟨S16384x10x3, .f32⟩
  | .hbm, ⟨88, _⟩ => ⟨S16384x10x3, .f32⟩
  | .hbm, ⟨89, _⟩ => ⟨S16384x10x3, .i32⟩
  | .hbm, ⟨90, _⟩ => ⟨S_, .i32⟩
  | .hbm, ⟨91, _⟩ => ⟨S16384x10x3, .i32⟩
  | .hbm, ⟨92, _⟩ => ⟨S16384x10x3, .i1⟩
  | .hbm, ⟨93, _⟩ => ⟨S_, .i32⟩
  | .hbm, ⟨94, _⟩ => ⟨S16384x10x3, .i32⟩
  | .hbm, ⟨95, _⟩ => ⟨S16384x10x3, .i32⟩
  | .hbm, ⟨96, _⟩ => ⟨S16384x10x3, .i32⟩
  | .hbm, ⟨97, _⟩ => ⟨S16384x10x3x1, .i32⟩
  | .hbm, ⟨98, _⟩ => ⟨S16384x10x3x256, .f32⟩
  | .hbm, ⟨99, _⟩ => ⟨S16384x10x3x1, .f32⟩
  | .hbm, ⟨100, _⟩ => ⟨S16384x10x3x256, .f32⟩
  | .hbm, ⟨101, _⟩ => ⟨S16384x10x3x256, .f32⟩
  | .hbm, ⟨102, _⟩ => ⟨S_, .f32⟩
  | .hbm, ⟨103, _⟩ => ⟨S16384x10x256, .f32⟩
  | .hbm, ⟨104, _⟩ => ⟨S256x1, .f32⟩
  | .hbm, ⟨105, _⟩ => ⟨S_, .f32⟩
  | .hbm, ⟨106, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x10x256, .f32⟩
  | .local _ .vmem, ⟨13, _⟩ => ⟨S256x10x256, .f32⟩
  | .local _ .vmem, ⟨14, _⟩ => ⟨S256x10x256, .f32⟩
  | .local _ .vmem, ⟨15, _⟩ => ⟨S256x10x256, .f32⟩
  | .local _ .vmem, ⟨16, _⟩ => ⟨S256x1, .f32⟩
  | .local _ .vmem, ⟨17, _⟩ => ⟨S256x1, .f32⟩
  | _, _ => ⟨S14952x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_15 : Ref sig .tc := ⟨.hbm, 90, rfl⟩
abbrev main_v64 : Ref sig .tc := ⟨.hbm, 91, rfl⟩
abbrev main_v65 : Ref sig .tc := ⟨.hbm, 92, rfl⟩
abbrev main_c_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst : Ref sig .tc := ⟨.hbm, 102, rfl⟩
abbrev main_v74 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v139 : BitVec 1 := Scalar.cmpi .eq arg0 c63_i32
  let v140 : BitVec 32 := Scalar.extui v139
  let c0_i32_52 : BitVec 32 := 0#32
  let v141 : BitVec 1 := Scalar.cmpi .ne v140 c0_i32_52
  v141

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x10x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x10x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S16384x10x2_S16384x10x1_0_0_0 : S16384x10x2.Slices ![0, 0, 0] S16384x10x1
  shapeCasts_S16384x10x1_S16384x10 : S16384x10x1.ShapeCasts S16384x10
  bcast_S_S16384x10 : S_.BroadcastsInDim S16384x10 (![] : Fin 0 → Fin S16384x10.rank)
  bcast_S16384x10_S16384x10x1_0_1 : S16384x10.BroadcastsInDim S16384x10x1 (![0, 1] : Fin 2 → Fin S16384x10x1.rank)
  slices_S16384x10x2_S16384x10x1_0_0_1 : S16384x10x2.Slices ![0, 0, 1] S16384x10x1
  bcast_S_S16384x10x3 : S_.BroadcastsInDim S16384x10x3 (![] : Fin 0 → Fin S16384x10x3.rank)
  bcast_S16384x10x3_S16384x10x3x1_0_1_2 : S16384x10x3.BroadcastsInDim S16384x10x3x1 (![0, 1, 2] : Fin 3 → Fin S16384x10x3x1.rank)
  bcast_S16384x10x3x1_S16384x10x3x256_0_1_2_3 : S16384x10x3x1.BroadcastsInDim S16384x10x3x256 (![0, 1, 2, 3] : Fin 4 → Fin S16384x10x3x256.rank)
  reducesTo_S16384x10x3x256_S16384x10x256_d2 : S16384x10x3x256.ReducesTo [2] S16384x10x256
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x10x256_S256x10x256_0_0_0 : ∀ a, (![0, 0, 0] : Fin 3 → Nat) a + S256x10x256.size a ≤ S256x10x256.size a
  h_S256x10x256 : 0 < S256x10x256.numel
  shapeCasts_S256x10x256_S256x10x256 : S256x10x256.ShapeCasts S256x10x256
  shapeCasts_S256x256_S256x1x256 : S256x256.ShapeCasts S256x1x256
  broadcasts_S256x1x256_S256x10x256 : S256x1x256.Broadcasts S256x10x256
  reduces_S256x10x256_S256x10 : S256x10x256.Reduces [2] S256x10
  reduces_S256x10_S256 : S256x10.Reduces [1] S256
  shapeCasts_S256_S256x1 : S256.ShapeCasts S256x1
  broadcasts_S256x1_S256x10 : S256x1.Broadcasts S256x10
  shapeCasts_S256x10_S256x10x1 : S256x10.ShapeCasts S256x10x1
  broadcasts_S256x10x1_S256x10x256 : S256x10x1.Broadcasts S256x10x256
  reduces_S256x10x256_S256x256 : S256x10x256.Reduces [1] S256x256
  reduces_S256x256_S256 : S256x256.Reduces [1] S256
  reducesTo_S256x1_S_d0_1 : S256x1.ReducesTo [0, 1] S_
  gather_S14952x256_S16384x1_S16384x256_1_0_n_n_0_1_1256_wf : GatherDims.WF S14952x256 S16384x1 S16384x256 [1] [0] [] [0] [] 1 ![1, 256]
  gather_S1346x256_S16384x1_S16384x256_1_0_n_n_0_1_1256_wf : GatherDims.WF S1346x256 S16384x1 S16384x256 [1] [0] [] [0] [] 1 ![1, 256]
  gather_S1346x256_S16384x10x1_S16384x10x256_2_0_n_n_0_2_1256_wf : GatherDims.WF S1346x256 S16384x10x1 S16384x10x256 [2] [0] [] [0] [] 2 ![1, 256]
  gather_S14952x256_S16384x10x1_S16384x10x256_2_0_n_n_0_2_1256_wf : GatherDims.WF S14952x256 S16384x10x1 S16384x10x256 [2] [0] [] [0] [] 2 ![1, 256]
  gather_S1346x256_S16384x10x3x1_S16384x10x3x256_3_0_n_n_0_3_1256_wf : GatherDims.WF S1346x256 S16384x10x3x1 S16384x10x3x256 [3] [0] [] [0] [] 3 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S16384x256.size a
  hwx0_1 : ∀ i : grid0.Coords, EltTy.bits .f32 = 32 ∨ (Rect.block (s := S16384x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S16384x256.size a
  hwx0_2 : ∀ i : grid0.Coords, EltTy.bits .f32 = 32 ∨ (Rect.block (s := S16384x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S16384x256.size a
  hwx0_3 : ∀ i : grid0.Coords, EltTy.bits .f32 = 32 ∨ (Rect.block (s := S16384x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S16384x256.size a
  hwx0_4 : ∀ i : grid0.Coords, EltTy.bits .f32 = 32 ∨ (Rect.block (s := S16384x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S16384x256.size a
  hwx0_5 : ∀ i : grid0.Coords, EltTy.bits .f32 = 32 ∨ (Rect.block (s := S16384x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x10x256.size a ≤ S16384x10x256.size a
  hwx0_6 : ∀ i : grid0.Coords, EltTy.bits .f32 = 32 ∨ (Rect.block (s := S16384x10x256) S256x10x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x10x256.size a ≤ S16384x10x256.size a
  hwx0_7 : ∀ i : grid0.Coords, EltTy.bits .f32 = 32 ∨ (Rect.block (s := S16384x10x256) S256x10x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)

variable [Facts₀]

def gather_S14952x256_S16384x1_S16384x256_1_0_n_n_0_1_1256 : GatherDims S14952x256 S16384x1 S16384x256 where
  offsetDims := [1]
  collapsedSliceDims := [0]
  operandBatchingDims := []
  startIndicesBatchingDims := []
  startIndexMap := [0]
  indexVectorDim := 1
  sliceSizes := ![1, 256]
  wf := gather_S14952x256_S16384x1_S16384x256_1_0_n_n_0_1_1256_wf
def gather_S1346x256_S16384x1_S16384x256_1_0_n_n_0_1_1256 : GatherDims S1346x256 S16384x1 S16384x256 where
  offsetDims := [1]
  collapsedSliceDims := [0]
  operandBatchingDims := []
  startIndicesBatchingDims := []
  startIndexMap := [0]
  indexVectorDim := 1
  sliceSizes := ![1, 256]
  wf := gather_S1346x256_S16384x1_S16384x256_1_0_n_n_0_1_1256_wf
def gather_S1346x256_S16384x10x1_S16384x10x256_2_0_n_n_0_2_1256 : GatherDims S1346x256 S16384x10x1 S16384x10x256 where
  offsetDims := [2]
  collapsedSliceDims := [0]
  operandBatchingDims := []
  startIndicesBatchingDims := []
  startIndexMap := [0]
  indexVectorDim := 2
  sliceSizes := ![1, 256]
  wf := gather_S1346x256_S16384x10x1_S16384x10x256_2_0_n_n_0_2_1256_wf
def gather_S14952x256_S16384x10x1_S16384x10x256_2_0_n_n_0_2_1256 : GatherDims S14952x256 S16384x10x1 S16384x10x256 where
  offsetDims := [2]
  collapsedSliceDims := [0]
  operandBatchingDims := []
  startIndicesBatchingDims := []
  startIndexMap := [0]
  indexVectorDim := 2
  sliceSizes := ![1, 256]
  wf := gather_S14952x256_S16384x10x1_S16384x10x256_2_0_n_n_0_2_1256_wf
def gather_S1346x256_S16384x10x3x1_S16384x10x3x256_3_0_n_n_0_3_1256 : GatherDims S1346x256 S16384x10x3x1 S16384x10x3x256 where
  offsetDims := [3]
  collapsedSliceDims := [0]
  operandBatchingDims := []
  startIndicesBatchingDims := []
  startIndexMap := [0]
  indexVectorDim := 3
  sliceSizes := ![1, 256]
  wf := gather_S1346x256_S16384x10x3x1_S16384x10x3x256_3_0_n_n_0_3_1256_wf

abbrev win0_0 : Pipeline.Window sig grid0 :=
  Pipeline.Window.ofSpec (Memref.whole main_v6) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41) S256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v60) S256x10x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v74) S256x10x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v75) S256x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S14952x256 : Shape := ⟨2, ![14952, 256]⟩
abbrev S1346x256 : Shape := ⟨2, ![1346, 256]⟩
abbrev S16384 : Shape := ⟨1, ![16384]⟩
abbrev S16384x10x2 : Shape := ⟨3, ![16384, 10, 2]⟩
abbrev S16384x10x3 : Shape := ⟨3, ![16384, 10, 3]⟩
abbrev S_ : Shape := ⟨0, ![]⟩
abbrev S16384x1 : Shape := ⟨2, ![16384, 1]⟩
abbrev S16384x256 : Shape := ⟨2, ![16384, 256]⟩
abbrev S16384x10x1 : Shape := ⟨3, ![16384, 10, 1]⟩
abbrev S16384x10 : Shape := ⟨2, ![16384, 10]⟩
abbrev S16384x10x256 : Shape := ⟨3, ![16384, 10, 256]⟩
abbrev S16384x1x256 : Shape := ⟨3, ![16384, 1, 256]⟩
abbrev S16384x10x3x1 : Shape := ⟨4, ![16384, 10, 3, 1]⟩
abbrev S16384x10x3x256 : Shape := ⟨4, ![16384, 10, 3, 256]⟩

abbrev nBuf : Space → Nat
  | .hbm => 233
  | .vmem => 0
  | .smem => 0
  | _ => 0

abbrev hbmTy0_0 (i : Nat) : BufTy := match i % 128 with
  | 0 => ⟨S14952x256, .f32⟩
  | 1 => ⟨S1346x256, .f32⟩
  | 2 => ⟨S16384, .i32⟩
  | 3 => ⟨S16384, .i32⟩
  | 4 => ⟨S16384, .i32⟩
  | 5 => ⟨S16384, .i32⟩
  | 6 => ⟨S16384, .i32⟩
  | 7 => ⟨S16384, .i32⟩
  | 8 => ⟨S16384x10x2, .i32⟩
  | 9 => ⟨S16384x10x3, .i32⟩
  | 10 => ⟨S_, .i32⟩
  | 11 => ⟨S16384, .i32⟩
  | 12 => ⟨S16384, .i1⟩
  | 13 => ⟨S_, .i32⟩
  | 14 => ⟨S16384, .i32⟩
  | 15 => ⟨S16384, .i32⟩
  | 16 => ⟨S16384, .i32⟩
  | 17 => ⟨S16384x1, .i32⟩
  | 18 => ⟨S16384x256, .f32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S16384x256, .f32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S16384x256, .f32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S16384x256, .f32⟩
  | 46 => ⟨S_, .i32⟩
  | 47 => ⟨S16384, .i32⟩
  | 48 => ⟨S16384, .i1⟩
  | 49 => ⟨S_, .i32⟩
  | 50 => ⟨S16384, .i32⟩
  | 51 => ⟨S16384, .i32⟩
  | 52 => ⟨S16384, .i32⟩
  | 53 => ⟨S16384x1, .i32⟩
  | 54 => ⟨S16384x256, .f32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S16384x256, .f32⟩
  | 64 => ⟨S16384x10x1, .i32⟩
  | 65 => ⟨S16384x10, .i32⟩
  | 66 => ⟨S_, .i32⟩
  | 67 => ⟨S16384x10, .i32⟩
  | 68 => ⟨S16384x10, .i1⟩
  | 69 => ⟨S_, .i32⟩
  | 70 => ⟨S16384x10, .i32⟩
  | 71 => ⟨S16384x10, .i32⟩
  | 72 => ⟨S16384x10, .i32⟩
  | 73 => ⟨S16384x10x1, .i32⟩
  | 74 => ⟨S16384x10x256, .f32⟩
  | 75 => ⟨S16384x10x1, .i32⟩
  | 76 => ⟨S16384x10, .i32⟩
  | 77 => ⟨S_, .i32⟩
  | 78 => ⟨S16384x10, .i32⟩
  | 79 => ⟨S16384x10, .i1⟩
  | 80 => ⟨S_, .i32⟩
  | 81 => ⟨S16384x10, .i32⟩
  | 82 => ⟨S16384x10, .i32⟩
  | 83 => ⟨S16384x10, .i32⟩
  | 84 => ⟨S16384x10x1, .i32⟩
  | 85 => ⟨S16384x10x256, .f32⟩
  | 86 => ⟨S16384x10x256, .f32⟩
  | 87 => ⟨S16384x10x256, .f32⟩
  | 88 => ⟨S16384x10x256, .f32⟩
  | 89 => ⟨S16384x1x256, .f32⟩
  | 90 => ⟨S16384x10x256, .f32⟩
  | 91 => ⟨S16384x10x256, .f32⟩
  | 92 => ⟨S16384x1x256, .f32⟩
  | 93 => ⟨S16384x10x256, .f32⟩
  | 94 => ⟨S16384x10x256, .f32⟩
  | 95 => ⟨S16384x10x256, .f32⟩
  | 96 => ⟨S_, .f32⟩
  | 97 => ⟨S16384x10, .f32⟩
  | 98 => ⟨S16384x10, .f32⟩
  | 99 => ⟨S16384x10, .f32⟩
  | 100 => ⟨S_, .f32⟩
  | 101 => ⟨S16384, .f32⟩
  | 102 => ⟨S_, .f32⟩
  | 103 => ⟨S16384, .f32⟩
  | 104 => ⟨S16384, .f32⟩
  | 105 => ⟨S16384x1, .f32⟩
  | 106 => ⟨S16384x10, .f32⟩
  | 107 => ⟨S16384x10, .f32⟩
  | 108 => ⟨S16384x10, .f32⟩
  | 109 => ⟨S_, .f32⟩
  | 110 => ⟨S16384, .f32⟩
  | 111 => ⟨S16384x1, .f32⟩
  | 112 => ⟨S16384x10, .f32⟩
  | 113 => ⟨S16384x10, .f32⟩
  | 114 => ⟨S16384x10x1, .f32⟩
  | 115 => ⟨S16384x10x256, .f32⟩
  | 116 => ⟨S16384x10x256, .f32⟩
  | 117 => ⟨S_, .f32⟩
  | 118 => ⟨S16384x256, .f32⟩
  | 119 => ⟨S16384x256, .f32⟩
  | 120 => ⟨S16384x256, .f32⟩
  | 121 => ⟨S_, .f32⟩
  | 122 => ⟨S16384, .f32⟩
  | 123 => ⟨S16384, .f32⟩
  | 124 => ⟨S16384, .f32⟩
  | 125 => ⟨S16384x256, .f32⟩
  | 126 => ⟨S16384x256, .f32⟩
  | 127 => ⟨S_, .f32⟩
  | _ => ⟨S14952x256, .f32⟩

abbrev hbmTy0_1 (i : Nat) : BufTy := match i % 128 with
  | 0 => ⟨S16384, .f32⟩
  | 1 => ⟨S16384, .f32⟩
  | 2 => ⟨S16384, .f32⟩
  | 3 => ⟨S16384x10x3, .f32⟩
  | 4 => ⟨S16384x10x3, .f32⟩
  | 5 => ⟨S16384x10x3, .i32⟩
  | 6 => ⟨S_, .i32⟩
  | 7 => ⟨S16384x10x3, .i32⟩
  | 8 => ⟨S16384x10x3, .i1⟩
  | 9 => ⟨S_, .i32⟩
  | 10 => ⟨S16384x10x3, .i32⟩
  | 11 => ⟨S16384x10x3, .i32⟩
  | 12 => ⟨S16384x10x3, .i32⟩
  | 13 => ⟨S16384x10x3x1, .i32⟩
  | 14 => ⟨S16384x10x3x256, .f32⟩
  | 15 => ⟨S16384x10x3x1, .f32⟩
  | 16 => ⟨S16384x10x3x256, .f32⟩
  | 17 => ⟨S16384x10x3x256, .f32⟩
  | 18 => ⟨S_, .f32⟩
  | 19 => ⟨S16384x10x256, .f32⟩
  | 20 => ⟨S16384x1x256, .f32⟩
  | 21 => ⟨S16384x10x256, .f32⟩
  | 22 => ⟨S16384x10x256, .f32⟩
  | 23 => ⟨S16384x1x256, .f32⟩
  | 24 => ⟨S16384x10x256, .f32⟩
  | 25 => ⟨S16384x10x256, .f32⟩
  | 26 => ⟨S16384x10x256, .f32⟩
  | 27 => ⟨S_, .f32⟩
  | 28 => ⟨S16384x10, .f32⟩
  | 29 => ⟨S16384x10, .f32⟩
  | 30 => ⟨S16384x10, .f32⟩
  | 31 => ⟨S_, .f32⟩
  | 32 => ⟨S16384, .f32⟩
  | 33 => ⟨S_, .f32⟩
  | 34 => ⟨S16384, .f32⟩
  | 35 => ⟨S16384, .f32⟩
  | 36 => ⟨S16384x1, .f32⟩
  | 37 => ⟨S16384x10, .f32⟩
  | 38 => ⟨S16384x10, .f32⟩
  | 39 => ⟨S16384x10, .f32⟩
  | 40 => ⟨S_, .f32⟩
  | 41 => ⟨S16384, .f32⟩
  | 42 => ⟨S16384x1, .f32⟩
  | 43 => ⟨S16384x10, .f32⟩
  | 44 => ⟨S16384x10, .f32⟩
  | 45 => ⟨S16384x10x1, .f32⟩
  | 46 => ⟨S16384x10x256, .f32⟩
  | 47 => ⟨S16384x10x256, .f32⟩
  | 48 => ⟨S_, .f32⟩
  | 49 => ⟨S16384x256, .f32⟩
  | 50 => ⟨S16384x256, .f32⟩
  | 51 => ⟨S16384x256, .f32⟩
  | 52 => ⟨S_, .f32⟩
  | 53 => ⟨S16384, .f32⟩
  | 54 => ⟨S16384, .f32⟩
  | 55 => ⟨S16384, .f32⟩
  | 56 => ⟨S16384x256, .f32⟩
  | 57 => ⟨S16384x256, .f32⟩
  | 58 => ⟨S_, .f32⟩
  | 59 => ⟨S16384, .f32⟩
  | 60 => ⟨S16384, .f32⟩
  | 61 => ⟨S16384, .f32⟩
  | 62 => ⟨S16384x256, .f32⟩
  | 63 => ⟨S16384x256, .f32⟩
  | 64 => ⟨S16384x256, .f32⟩
  | 65 => ⟨S_, .f32⟩
  | 66 => ⟨S16384, .f32⟩
  | 67 => ⟨S16384, .f32⟩
  | 68 => ⟨S16384, .f32⟩
  | 69 => ⟨S16384x256, .f32⟩
  | 70 => ⟨S16384x256, .f32⟩
  | 71 => ⟨S16384x256, .f32⟩
  | 72 => ⟨S_, .f32⟩
  | 73 => ⟨S16384, .f32⟩
  | 74 => ⟨S16384, .f32⟩
  | 75 => ⟨S16384, .f32⟩
  | 76 => ⟨S16384, .f32⟩
  | 77 => ⟨S_, .f32⟩
  | 78 => ⟨S16384, .f32⟩
  | 79 => ⟨S16384, .f32⟩
  | 80 => ⟨S_, .f32⟩
  | 81 => ⟨S16384, .f32⟩
  | 82 => ⟨S16384, .f32⟩
  | 83 => ⟨S_, .f32⟩
  | 84 => ⟨S_, .f32⟩
  | 85 => ⟨S16384, .f32⟩
  | 86 => ⟨S_, .f32⟩
  | 87 => ⟨S16384, .f32⟩
  | 88 => ⟨S16384, .f32⟩
  | 89 => ⟨S_, .f32⟩
  | 90 => ⟨S16384, .f32⟩
  | 91 => ⟨S16384, .f32⟩
  | 92 => ⟨S_, .f32⟩
  | 93 => ⟨S_, .f32⟩
  | 94 => ⟨S_, .f32⟩
  | 95 => ⟨S16384, .f32⟩
  | 96 => ⟨S_, .f32⟩
  | 97 => ⟨S16384, .f32⟩
  | 98 => ⟨S16384, .f32⟩
  | 99 => ⟨S_, .f32⟩
  | 100 => ⟨S16384, .f32⟩
  | 101 => ⟨S16384, .f32⟩
  | 102 => ⟨S_, .f32⟩
  | 103 => ⟨S_, .f32⟩
  | 104 => ⟨S_, .f32⟩
  | _ => ⟨S14952x256, .f32⟩

abbrev hbmTy (i : Nat) : BufTy := match i / 128 with
  | 0 => hbmTy0_0 i
  | 1 => hbmTy0_1 i
  | _ => ⟨S14952x256, .f32⟩

abbrev bufTy : (tb : Table) → Fin (tcTables nBuf tb) → BufTy
  | .hbm, ⟨i, _⟩ => hbmTy i
  | _, _ => ⟨S14952x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_20 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_21 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_23 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_24 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_25 : Ref sig .tc := ⟨.hbm, 159, rfl⟩
abbrev main_v122 : Ref sig .tc := ⟨.hbm, 160, rfl⟩
abbrev main_cst_26 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_27 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_28 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_29 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_30 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_31 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_cst_32 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_33 : Ref sig .tc := ⟨.hbm, 205, rfl⟩
abbrev main_v160 : Ref sig .tc := ⟨.hbm, 206, rfl⟩
abbrev main_v161 : Ref sig .tc := ⟨.hbm, 207, rfl⟩
abbrev main_cst_34 : Ref sig .tc := ⟨.hbm, 208, rfl⟩
abbrev main_v162 : Ref sig .tc := ⟨.hbm, 209, rfl⟩
abbrev main_v163 : Ref sig .tc := ⟨.hbm, 210, rfl⟩
abbrev main_cst_35 : Ref sig .tc := ⟨.hbm, 211, rfl⟩
abbrev main_v164 : Ref sig .tc := ⟨.hbm, 212, rfl⟩
abbrev main_v165 : Ref sig .tc := ⟨.hbm, 213, rfl⟩
abbrev main_cst_36 : Ref sig .tc := ⟨.hbm, 214, rfl⟩
abbrev main_v166 : Ref sig .tc := ⟨.hbm, 215, rfl⟩
abbrev main_v167 : Ref sig .tc := ⟨.hbm, 216, rfl⟩
abbrev main_cst_37 : Ref sig .tc := ⟨.hbm, 217, rfl⟩
abbrev main_v168 : Ref sig .tc := ⟨.hbm, 218, rfl⟩
abbrev main_v169 : Ref sig .tc := ⟨.hbm, 219, rfl⟩
abbrev main_cst_38 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_39 : Ref sig .tc := ⟨.hbm, 224, rfl⟩
abbrev main_v173 : Ref sig .tc := ⟨.hbm, 225, rfl⟩
abbrev main_v174 : Ref sig .tc := ⟨.hbm, 226, rfl⟩
abbrev main_cst_40 : Ref sig .tc := ⟨.hbm, 227, rfl⟩
abbrev main_v175 : Ref sig .tc := ⟨.hbm, 228, rfl⟩
abbrev main_v176 : Ref sig .tc := ⟨.hbm, 229, rfl⟩
abbrev main_cst_41 : Ref sig .tc := ⟨.hbm, 230, rfl⟩
abbrev main_v177 : Ref sig .tc := ⟨.hbm, 231, rfl⟩
abbrev main_v178 : Ref sig .tc := ⟨.hbm, 232, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S16384x10x2_S16384x10x1_0_0_0 : S16384x10x2.Slices ![0, 0, 0] S16384x10x1
  shapeCasts_S16384x10x1_S16384x10 : S16384x10x1.ShapeCasts S16384x10
  bcast_S_S16384x10 : S_.BroadcastsInDim S16384x10 (![] : Fin 0 → Fin S16384x10.rank)
  bcast_S16384x10_S16384x10x1_0_1 : S16384x10.BroadcastsInDim S16384x10x1 (![0, 1] : Fin 2 → Fin S16384x10x1.rank)
  slices_S16384x10x2_S16384x10x1_0_0_1 : S16384x10x2.Slices ![0, 0, 1] S16384x10x1
  bcast_S16384x256_S16384x1x256_0_2 : S16384x256.BroadcastsInDim S16384x1x256 (![0, 2] : Fin 2 → Fin S16384x1x256.rank)
  bcast_S16384x1x256_S16384x10x256_0_1_2 : S16384x1x256.BroadcastsInDim S16384x10x256 (![0, 1, 2] : Fin 3 → Fin S16384x10x256.rank)
  reducesTo_S16384x10x256_S16384x10_d2 : S16384x10x256.ReducesTo [2] S16384x10
  h_S_ : 0 < S_.numel
  reducesTo_S16384x10_S16384_d1 : S16384x10.ReducesTo [1] S16384
  bcast_S16384x1_S16384x10_0_1 : S16384x1.BroadcastsInDim S16384x10 (![0, 1] : Fin 2 → Fin S16384x10.rank)
  bcast_S16384x10x1_S16384x10x256_0_1_2 : S16384x10x1.BroadcastsInDim S16384x10x256 (![0, 1, 2] : Fin 3 → Fin S16384x10x256.rank)
  reducesTo_S16384x10x256_S16384x256_d1 : S16384x10x256.ReducesTo [1] S16384x256
  reducesTo_S16384x256_S16384_d1 : S16384x256.ReducesTo [1] S16384
  bcast_S_S16384x10x3 : S_.BroadcastsInDim S16384x10x3 (![] : Fin 0 → Fin S16384x10x3.rank)
  bcast_S16384x10x3_S16384x10x3x1_0_1_2 : S16384x10x3.BroadcastsInDim S16384x10x3x1 (![0, 1, 2] : Fin 3 → Fin S16384x10x3x1.rank)
  bcast_S16384x10x3x1_S16384x10x3x256_0_1_2_3 : S16384x10x3x1.BroadcastsInDim S16384x10x3x256 (![0, 1, 2, 3] : Fin 4 → Fin S16384x10x3x256.rank)
  reducesTo_S16384x10x3x256_S16384x10x256_d2 : S16384x10x3x256.ReducesTo [2] S16384x10x256
  reducesTo_S16384_S_d0 : S16384.ReducesTo [0] S_
  gather_S14952x256_S16384x1_S16384x256_1_0_n_n_0_1_1256_wf : GatherDims.WF S14952x256 S16384x1 S16384x256 [1] [0] [] [0] [] 1 ![1, 256]
  gather_S1346x256_S16384x1_S16384x256_1_0_n_n_0_1_1256_wf : GatherDims.WF S1346x256 S16384x1 S16384x256 [1] [0] [] [0] [] 1 ![1, 256]
  gather_S1346x256_S16384x10x1_S16384x10x256_2_0_n_n_0_2_1256_wf : GatherDims.WF S1346x256 S16384x10x1 S16384x10x256 [2] [0] [] [0] [] 2 ![1, 256]
  gather_S14952x256_S16384x10x1_S16384x10x256_2_0_n_n_0_2_1256_wf : GatherDims.WF S14952x256 S16384x10x1 S16384x10x256 [2] [0] [] [0] [] 2 ![1, 256]
  gather_S1346x256_S16384x10x3x1_S16384x10x3x256_3_0_n_n_0_3_1256_wf : GatherDims.WF S1346x256 S16384x10x3x1 S16384x10x3x256 [3] [0] [] [0] [] 3 ![1, 256]

variable [Facts₀]

def gather_S14952x256_S16384x1_S16384x256_1_0_n_n_0_1_1256 : GatherDims S14952x256 S16384x1 S16384x256 where
  offsetDims := [1]
  collapsedSliceDims := [0]
  operandBatchingDims := []
  startIndicesBatchingDims := []
  startIndexMap := [0]
  indexVectorDim := 1
  sliceSizes := ![1, 256]
  wf := gather_S14952x256_S16384x1_S16384x256_1_0_n_n_0_1_1256_wf
def gather_S1346x256_S16384x1_S16384x256_1_0_n_n_0_1_1256 : GatherDims S1346x256 S16384x1 S16384x256 where
  offsetDims := [1]
  collapsedSliceDims := [0]
  operandBatchingDims := []
  startIndicesBatchingDims := []
  startIndexMap := [0]
  indexVectorDim := 1
  sliceSizes := ![1, 256]
  wf := gather_S1346x256_S16384x1_S16384x256_1_0_n_n_0_1_1256_wf
def gather_S1346x256_S16384x10x1_S16384x10x256_2_0_n_n_0_2_1256 : GatherDims S1346x256 S16384x10x1 S16384x10x256 where
  offsetDims := [2]
  collapsedSliceDims := [0]
  operandBatchingDims := []
  startIndicesBatchingDims := []
  startIndexMap := [0]
  indexVectorDim := 2
  sliceSizes := ![1, 256]
  wf := gather_S1346x256_S16384x10x1_S16384x10x256_2_0_n_n_0_2_1256_wf
def gather_S14952x256_S16384x10x1_S16384x10x256_2_0_n_n_0_2_1256 : GatherDims S14952x256 S16384x10x1 S16384x10x256 where
  offsetDims := [2]
  collapsedSliceDims := [0]
  operandBatchingDims := []
  startIndicesBatchingDims := []
  startIndexMap := [0]
  indexVectorDim := 2
  sliceSizes := ![1, 256]
  wf := gather_S14952x256_S16384x10x1_S16384x10x256_2_0_n_n_0_2_1256_wf
def gather_S1346x256_S16384x10x3x1_S16384x10x3x256_3_0_n_n_0_3_1256 : GatherDims S1346x256 S16384x10x3x1 S16384x10x3x256 where
  offsetDims := [3]
  collapsedSliceDims := [0]
  operandBatchingDims := []
  startIndicesBatchingDims := []
  startIndexMap := [0]
  indexVectorDim := 3
  sliceSizes := ![1, 256]
  wf := gather_S1346x256_S16384x10x3x1_S16384x10x3x256_3_0_n_n_0_3_1256_wf

class Facts : Prop extends Facts₀ where

variable [Facts]
-- ==== Proof.KernelBlock.lean ====
/-
  What one grid point leaves in the accumulator, as one pure function of the point's eight input blocks.

  The kernel body computes, from the blocks eh, er, et, ehn, ern, etn (256 rows of 256 entries) and the two context
  blocks (256 rows of 10 context rows of 256 entries), a one-column block of 256 hinge sums, and adds it to the
  accumulator it carries from point to point. At the first point the accumulator is first set to zero; at the last point
  the accumulated column is also copied to the output block. So in each of the three control cases the accumulator ends
  at stepLoss (blocks) (previous accumulator), the previous accumulator being the zero column at the first point, and at
  the last point the output block holds the same column.
-/
import proofs.«101089_j38465727103247_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Block

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The neighbour hinge column of a block: from eh, er, et, ehn and the neighbour context block. -/
def hingeN (x0 x1 x2 x3 : Vec F S256x256 .f32) (x6 : Vec F S256x10x256 .f32) : FVec F S256x1 .f32 :=
  k0_pay18
    (k0_pay14 (k0_pay3 x0) (k0_pay9 x6) (k0_pay11 x1 x2 x6) (k0_pay12 x1 x2 x6) (FloatOps.ofBits .f32 0xFF800000#32))
    (k0_pay15 (k0_pay6 x3) (k0_pay9 x6) (k0_pay11 x1 x2 x6) (k0_pay12 x1 x2 x6) (FloatOps.ofBits .f32 0xFF800000#32))

/-- The path hinge column of a block: from eh, er, et, ern and the path context block. -/
def hingeP (x0 x1 x2 x4 : Vec F S256x256 .f32) (x7 : Vec F S256x10x256 .f32) : FVec F S256x1 .f32 :=
  k0_pay19 (k0_pay4 x1) (k0_pay7 x4) (k0_pay10 x7) (k0_pay16 (k0_pay3 x0) (k0_pay5 x2) (k0_pay10 x7))
    (k0_pay17 (k0_pay3 x0) (k0_pay5 x2) (k0_pay10 x7))

/-- The difference of the two triple scores of a block (its hinge is taken inside stepLoss). -/
def diffT (x0 x1 x2 x3 x4 x5 : Vec F S256x256 .f32) : FVec F S256x1 .f32 :=
  k0_pay20 (k0_pay3 x0) (k0_pay4 x1) (k0_pay5 x2) (k0_pay6 x3) (k0_pay7 x4) (k0_pay8 x5)

/-- The accumulator after a point: the previous accumulator plus the block's three hinge columns. -/
def stepLoss (x0 : Vec F S256x256 .f32) (x1 : Vec F S256x256 .f32) (x2 : Vec F S256x256 .f32) (x3 : Vec F S256x256 .f32) (x4 : Vec F S256x256 .f32) (x5 : Vec F S256x256 .f32) (x6 : Vec F S256x10x256 .f32) (x7 : Vec F S256x10x256 .f32) (acc : Vec F S256x1 .f32) : FVec F S256x1 .f32 :=
  k0_pay1 (hingeN x0 x1 x2 x3 x6) (hingeP x0 x1 x2 x4 x7) (diffT x0 x1 x2 x3 x4 x5) (FloatOps.ofBits .f32 0x3F800000#32) acc

/-- A middle point: the accumulator ends at the step over what the point before left. -/
theorem sout_B (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x10x256 .f32) (harg7 : arg7.IsWhole) (arg8 : Memref sig .tc .vmem S256x10x256 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (x6 : Vec F S256x10x256 .f32) (x7 : Vec F S256x10x256 .f32) (xs0 : Vec F S256x1 .f32) :
    sout0_B_0 c i arg1 harg1 arg2 harg2 arg3 harg3 arg4 harg4 arg5 harg5 arg6 harg6 arg7 harg7 arg8 harg8 arg9 harg9 arg10 harg10 hc0 hc1 x0 x1 x2 x3 x4 x5 x6 x7 xs0 = stepLoss x0 x1 x2 x3 x4 x5 x6 x7 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_B
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg10.read_unread, View.ld_unit_zero (S := S256x256) hz2,
    View.ld_unit_zero (S := S256x10x256) hz3, View.ld_unit_zero (S := S256x1) hz2]
  rfl

/-- The first point: the accumulator is zeroed, read back, and ends at the step over the zero column. -/
theorem sout_A (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x10x256 .f32) (harg7 : arg7.IsWhole) (arg8 : Memref sig .tc .vmem S256x10x256 .f32) (harg8 : arg8.IsWhole) (arg9 : Memref sig .tc .vmem S256x1 .f32) (harg9 : arg9.IsWhole) (arg10 : Memref sig .tc .vmem S256x1 .f32) (harg10 : arg10.IsWhole) (hc0 : cond0_0 i) (hc1 : ¬cond0_1 i)
    (x0 : Vec F S256x256 .f32) (x1 : Vec F S256x256 .f32) (x2 : Vec F S256x256 .f32) (x3 : Vec F S256x256 .f32) (x4 : Vec F S256x256 .f32) (x5 : Vec F S256x256 .f32) (x6 : Vec F S256x10x256 .f32) (x7 : Vec F S256x10x256 .f32) :
    sout0_A_0 c i arg1 harg1 arg2 harg2 arg3 harg3 arg4 harg4 arg5 harg5 arg6 harg6 arg7 harg7 arg8 harg8 arg9 harg9 arg10 harg10 hc0 hc1 x0 x1 x2 x3 x4 x5 x6 x7 = stepLoss x0 x1 x2 x3 x4 x5 x6 x7 k0_pay2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6 x7)]
  unfold kernelRun0_A
  dsimp only
  sl_unfold_words
  rw [View.canon_cons_unit_zero (S := S256x1) hz2, View.readCov_unit_zero (S := S256x1) _ hz2]
  simp only [View.readAt_eq_ld, harg1.read_unread, harg2.read_unread, harg3.read_unread, harg4.read_unread, harg5.read_unread,
    harg6.read_unread, harg7.read_unread, harg8.read_unread, View.ld_unit_zero (S := S256x256) hz2,
    View.ld_unit_zero (S := S256x10x256) hz3]
  rfl

/-- The last point: the accumulator ends at the step over what the point before left ... -/
theorem sout_C (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x10x256 .f32) (harg7 : arg7.IsWhole) (arg8 : Memref sig .tc .vmem S256x10x256 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (x6 : Vec F S256x10x256 .f32) (x7 : Vec F S256x10x256 .f32) (xs0 : Vec F S256x1 .f32) :
    sout0_C_0 c i arg1 harg1 arg2 harg2 arg3 harg3 arg4 harg4 arg5 harg5 arg6 harg6 arg7 harg7 arg8 harg8 arg9 harg9 arg10 harg10 hc0 hc1 x0 x1 x2 x3 x4 x5 x6 x7 xs0 = stepLoss x0 x1 x2 x3 x4 x5 x6 x7 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg10.read_unread, View.ld_unit_zero (S := S256x256) hz2,
    View.ld_unit_zero (S := S256x10x256) hz3, View.ld_unit_zero (S := S256x1) hz2]
  rfl

/-- ... and the output block holds that same column, read back from the accumulator. -/
theorem out_C (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x10x256 .f32) (harg7 : arg7.IsWhole) (arg8 : Memref sig .tc .vmem S256x10x256 .f32) (harg8 : arg8.IsWhole) (arg9 : Memref sig .tc .vmem S256x1 .f32) (harg9 : arg9.IsWhole) (arg10 : Memref sig .tc .vmem S256x1 .f32) (harg10 : arg10.IsWhole) (hc0 : ¬cond0_0 i) (hc1 : cond0_1 i)
    (x0 : Vec F S256x256 .f32) (x1 : Vec F S256x256 .f32) (x2 : Vec F S256x256 .f32) (x3 : Vec F S256x256 .f32) (x4 : Vec F S256x256 .f32) (x5 : Vec F S256x256 .f32) (x6 : Vec F S256x10x256 .f32) (x7 : Vec F S256x10x256 .f32) (xs0 : Vec F S256x1 .f32) :
    out0_C_8 c i arg1 harg1 arg2 harg2 arg3 harg3 arg4 harg4 arg5 harg5 arg6 harg6 arg7 harg7 arg8 harg8 arg9 harg9 arg10 harg10 hc0 hc1 x0 x1 x2 x3 x4 x5 x6 x7 xs0 = stepLoss x0 x1 x2 x3 x4 x5 x6 x7 xs0 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 x6 x7 xs0)]
  unfold kernelRun0_C
  dsimp only
  sl_unfold_words
  rw [View.canon_unit_zero hz2, View.readCov_unit_zero (S := S256x1) _ hz2]
  simp only [View.readAt_eq_ld, harg1.read_unread, harg2.read_unread, harg3.read_unread, harg4.read_unread, harg5.read_unread,
    harg6.read_unread, harg7.read_unread, harg8.read_unread, harg10.read_unread, View.ld_unit_zero (S := S256x256) hz2,
    View.ld_unit_zero (S := S256x10x256) hz3, View.ld_unit_zero (S := S256x1) hz2]
  rfl

end Cert.KernelIdeal.Block

end
-- ==== Proof.Spec.lean ====
/-
  The mathematics of the attention margin loss, stated once over the extended reals and over abstract row data.

  For one batch row the loss is a sum of three hinge terms. With the negated Euclidean norm
  negNorm f = -sqrt (sum_c f c * f c), a softmax over n scores taken after subtracting the largest score (bounded below
  by the word of minus infinity), and the weighted mix of n context rows by those softmax weights:
    the neighbour term compares negNorm (mix - eh) with negNorm (mix - ehn), the mix taken over the context rows w with
      scores negNorm ((-w j + er) - et);
    the path term compares negNorm (mix - er) with negNorm (mix - ern), the mix taken over the path rows ep with scores
      negNorm ((eh + ep j) - et);
    the triple term compares negNorm ((eh + er) - et) with negNorm ((ehn + ern) - etn);
  each comparison is hinge p q = max 0 (1 - (p - q)).

  Two laws join the kernel to the reference. On real numbers a - b = -(b - a), which fails at the infinities of the
  extended reals, so it is the one place where finiteness of the tables is used. And a sum over the 16384 rows is the sum
  over the 256 positions inside a block of the sums over the 64 blocks: addition of extended reals is commutative and
  associative everywhere, so this regrouping, the splitting of a sum of three terms, and dropping zero summands need no
  finiteness.
-/
import Idealize.ShloMosaic.PureOps.Ideal.Laws

open scoped BigOperators

noncomputable section

namespace Cert.AttnLoss

open Idealize.ShloMosaic

/-- The value of the binary word of minus infinity, and of the word of the margin 1.0, as extended reals. -/
abbrev negInf : EReal := Ideal.ofBits .f32 0xFF800000#32
abbrev margin : EReal := Ideal.ofBits .f32 0x3F800000#32

/-- The negated Euclidean norm of a row. -/
def negNorm {d : ℕ} (f : Fin d → EReal) : EReal := -(Ideal.sqrt (∑ c, f c * f c))

/-- The largest of n scores, bounded below by the word of minus infinity. -/
def rowTop {n : ℕ} (s : Fin n → EReal) : EReal := max negInf ((Finset.univ : Finset (Fin n)).fold max negInf s)

/-- The exponential of a score after the largest score is subtracted. -/
def soft {n : ℕ} (s : Fin n → EReal) (j : Fin n) : EReal := Ideal.exp (s j - rowTop s)

/-- A softmax weight. -/
def weight {n : ℕ} (s : Fin n → EReal) (j : Fin n) : EReal := Ideal.div (soft s j) (∑ k, soft s k)

/-- The context rows x mixed by the softmax weights of the scores s, at coordinate c. -/
def mix {n d : ℕ} (s : Fin n → EReal) (x : Fin n → Fin d → EReal) (c : Fin d) : EReal := ∑ j, weight s j * x j c

/-- The margin ranking term of a positive score p against a negative score q. -/
def hinge (p q : EReal) : EReal := max 0 (margin - (p - q))

/-- The score of neighbour context row j. -/
def scoreN {n d : ℕ} (er et : Fin d → EReal) (w : Fin n → Fin d → EReal) (j : Fin n) : EReal :=
  negNorm fun c => (-(w j c) + er c) - et c

/-- The score of path context row j. -/
def scoreP {n d : ℕ} (eh et : Fin d → EReal) (ep : Fin n → Fin d → EReal) (j : Fin n) : EReal :=
  negNorm fun c => (eh c + ep j c) - et c

/-- The neighbour term of one batch row. -/
def lossN {n d : ℕ} (eh ehn er et : Fin d → EReal) (w : Fin n → Fin d → EReal) : EReal :=
  hinge (negNorm fun c => mix (scoreN er et w) w c - eh c) (negNorm fun c => mix (scoreN er et w) w c - ehn c)

/-- The path term of one batch row. -/
def lossP {n d : ℕ} (eh er ern et : Fin d → EReal) (ep : Fin n → Fin d → EReal) : EReal :=
  hinge (negNorm fun c => mix (scoreP eh et ep) ep c - er c) (negNorm fun c => mix (scoreP eh et ep) ep c - ern c)

/-- The triple term of one batch row. -/
def lossT {d : ℕ} (eh er et ehn ern etn : Fin d → EReal) : EReal :=
  hinge (negNorm fun c => (eh c + er c) - et c) (negNorm fun c => (ehn c + ern c) - etn c)

/-- On real numbers a difference is the negated opposite difference. -/
theorem sub_eq_neg_sub_of_real {a b : EReal} (ha : ∃ r : ℝ, a = r) (hb : ∃ r : ℝ, b = r) : a - b = -(b - a) := by
  obtain ⟨x, rfl⟩ := ha
  obtain ⟨y, rfl⟩ := hb
  rw [← EReal.coe_sub, ← EReal.coe_sub, ← EReal.coe_neg, neg_sub]

/-- Batch row p of block t. -/
def row (t : Fin 64) (p : Fin 256) : Fin 16384 := ⟨t.val * 256 + p.val, by omega⟩

/-- A sum over the 16384 batch rows is the sum over the positions in a block of the sums over the blocks. -/
theorem sum_rows {M : Type*} [AddCommMonoid M] (f : Fin 16384 → M) :
    ∑ b, f b = ∑ p : Fin 256, ∑ t : Fin 64, f (row t p) := by
  rw [Finset.sum_comm, ← Fintype.sum_prod_type' (f := fun t p => f (row t p))]
  refine ((Equiv.sum_comp (finProdFinEquiv : Fin 64 × Fin 256 ≃ Fin 16384) f).symm.trans ?_)
  refine Finset.sum_congr rfl fun x _ => congrArg f (Fin.ext ?_)
  show x.2.val + 256 * x.1.val = x.1.val * 256 + x.2.val
  omega

/-- The block-wise accumulated total is the sum of the three per-row totals. -/
theorem total_eq (N P T : Fin 16384 → EReal) :
    (0 : EReal) + ∑ p : Fin 256, ((0 : EReal) + ∑ t : Fin 64, ((N (row t p) + P (row t p)) + T (row t p)))
      = (((0 : EReal) + ∑ b, N b) + ((0 : EReal) + ∑ b, P b)) + ((0 : EReal) + ∑ b, T b) := by
  simp only [zero_add, Finset.sum_add_distrib, sum_rows N, sum_rows P, sum_rows T]

end Cert.AttnLoss

end
-- ==== Proof.LibKeepdims.lean ====
/-
  Layout and reduction facts a row-wise kernel needs when its payload is read at one index, over the extended reals:
  the column forms of a "keep the reduced axis" computation — a vector of row values viewed as a one-column matrix,
  and a one-column matrix spread over every column —, a row's maximum as the fold of `max` over the row's entries, the
  two binary words that encode `-∞`, and the two pointwise operations (absolute value, rounding to even) at an index.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section AtIdeal
variable {s : Shape} {φ : FTy}

/-- An absolute value at an index is the larger of the element and its negation … -/
theorem absf_apply (a : FVec Ideal s φ) (i : s.Idx) : absf a i = max (a i) (-(a i)) := rfl
/-- … and a rounding to even rounds the element. -/
theorem roundeven_apply (a : FVec Ideal s φ) (i : s.Idx) : roundeven a i = Ideal.liftRound Ideal.roundHalfEven (a i) := rfl

end AtIdeal

/-- At the extended reals a scalar constant is what its word denotes. -/
theorem scalar_ofBits (φ : FTy) (b : BitVec φ.bits) : Scalar.ofBits (F := Ideal) φ b = Ideal.ofBits φ b := rfl

/-- The f32 word `0xFF800000` is `-∞`. -/
theorem negInf_f32 : Ideal.ofBits .f32 0xFF800000#32 = (⊥ : EReal) := by simp [Ideal.ofBits, Ideal.ieee]
/-- The bf16 word `0xFF80` is `-∞`. -/
theorem negInf_bf16 : Ideal.ofBits .bf16 0xFF80#16 = (⊥ : EReal) := by simp [Ideal.ofBits, Ideal.ieee]

/-- A row's maximum: the `maximumf` reduction of an `[a, b]` array over its columns reads, at row `p`, the fold of
    `max` from the accumulator's value over the row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (src ∘ h.lift (ix1 p)) = _
  congr 1
  funext k
  show src (h.lift (ix1 p) k) = src (ix2 p k)
  congr 1
  funext d; apply Fin.ext
  match d with
  | ⟨0, _⟩ => rfl
  | ⟨1, _⟩ => rfl

end Cert.LibKeepdims
-- ==== Proof.LibRowSum.lean ====
/-
  A lane sum read at one row, over the extended reals: summing an [a, b] array along its second coordinate gives, at
  row p, the sum over the b entries of that row — for any extents and any float format. The inserted index that the
  library's one-axis reduction law speaks of is, at literal rank two, the pair (p, k).
-/
import Idealize.ShloMosaic.Lib.ValueIdx
import Idealize.ShloMosaic.PureOps.Ideal.Laws

open scoped BigOperators

namespace Cert.LibRowSum

open Idealize.ShloMosaic Idealize.ShloMosaic.ValueIdx

/-- A row's sum: the `add` reduction of an `[a, b]` array over its columns reads, at row `p`, the sum of the row's
    `b` entries (the accumulator is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext d; apply Fin.ext
  match d with
  | ⟨0, _⟩ => rfl
  | ⟨1, _⟩ => rfl

end Cert.LibRowSum
-- ==== Proof.LibFlatten.lean ====
/-
  Rank-3 layout facts read at one index, for any extents and any entries.

  Folding the two leading axes of an [a, b, c] array into one axis of a·b rows (and unfolding it again) keeps every entry:
  row p·b + q of the folded array is the pair (p, q). The three rotations of a rank-3 array's axes that are not already
  in the library move the entry at (p, q, r) to (q, r, p), to (q, p, r) and to (r, p, q). A trailing unit axis added to a
  matrix, and a trailing unit axis spread over c entries, read the matrix entry. A sum over the last of three axes
  reads, at (p, q), the sum of the c entries (p, q, ·).
-/
import Idealize.ShloMosaic.Lib.Pipeline.Value
import Idealize.ShloMosaic.Lib.ValueIdx
import Idealize.ShloMosaic.PureOps.Ideal.Laws

open scoped BigOperators

namespace Cert.LibFlatten

open Idealize.ShloMosaic Idealize.ShloMosaic.ValueIdx

variable {α : Type}

/-- An `[a, b, c]` array with its two leading axes folded into `n` rows reads, at row `j = p·b + q` and column `r`,
    the operand at `(p, q, r)`. -/
theorem fold_abc_apply {a b c n : ℕ} (x : (⟨3, ![a, b, c]⟩ : Shape).Idx → α)
    (h : (⟨3, ![a, b, c]⟩ : Shape).ShapeCasts ⟨2, ![n, c]⟩) (p : Fin a) (q : Fin b) (r : Fin c) (j : Fin n)
    (hj : j.val = p.val * b + q.val) : shapeCast ⟨2, ![n, c]⟩ x h (ix2 j r) = x (ix3 p q r) :=
  shapeCast_apply x h _ _ (by
    rw [Shape.rowMajor_val_three, Shape.rowMajor_val_two]
    show (p.val * b + q.val) * c + r.val = j.val * c + r.val
    rw [hj])

/-- An `[n, c]` array with its rows unfolded into `[a, b]` reads, at `(p, q, r)`, the operand at row `j = p·b + q`. -/
theorem unfold_abc_apply {a b c n : ℕ} (x : (⟨2, ![n, c]⟩ : Shape).Idx → α)
    (h : (⟨2, ![n, c]⟩ : Shape).ShapeCasts ⟨3, ![a, b, c]⟩) (p : Fin a) (q : Fin b) (r : Fin c) (j : Fin n)
    (hj : j.val = p.val * b + q.val) : shapeCast ⟨3, ![a, b, c]⟩ x h (ix3 p q r) = x (ix2 j r) :=
  shapeCast_apply x h _ _ (by
    rw [Shape.rowMajor_val_three, Shape.rowMajor_val_two]
    show j.val * c + r.val = (p.val * b + q.val) * c + r.val
    rw [hj])

/-- The rotation `[1, 2, 0]` of an `[a, b, c]` array reads, at `(q, r, p)`, the operand at `(p, q, r)`. -/
theorem rot120_apply {a b c : ℕ} (x : (⟨3, ![a, b, c]⟩ : Shape).Idx → α)
    (h : (⟨3, ![a, b, c]⟩ : Shape).Transposes [1, 2, 0] ⟨3, ![b, c, a]⟩) (p : Fin a) (q : Fin b) (r : Fin c) :
    transpose ⟨3, ![b, c, a]⟩ [1, 2, 0] x h (ix3 q r p) = x (ix3 p q r) :=
  transpose_apply _ x h _ _ fun d => match d with | ⟨0, _⟩ => rfl | ⟨1, _⟩ => rfl | ⟨2, _⟩ => rfl

/-- The swap `[1, 0, 2]` of the two leading axes of an `[a, b, c]` array reads, at `(q, p, r)`, the operand at `(p, q, r)`. -/
theorem swap102_apply {a b c : ℕ} (x : (⟨3, ![a, b, c]⟩ : Shape).Idx → α)
    (h : (⟨3, ![a, b, c]⟩ : Shape).Transposes [1, 0, 2] ⟨3, ![b, a, c]⟩) (p : Fin a) (q : Fin b) (r : Fin c) :
    transpose ⟨3, ![b, a, c]⟩ [1, 0, 2] x h (ix3 q p r) = x (ix3 p q r) :=
  transpose_apply _ x h _ _ fun d => match d with | ⟨0, _⟩ => rfl | ⟨1, _⟩ => rfl | ⟨2, _⟩ => rfl

/-- The rotation `[2, 0, 1]` of an `[a, b, c]` array reads, at `(r, p, q)`, the operand at `(p, q, r)`. -/
theorem rot201_apply {a b c : ℕ} (x : (⟨3, ![a, b, c]⟩ : Shape).Idx → α)
    (h : (⟨3, ![a, b, c]⟩ : Shape).Transposes [2, 0, 1] ⟨3, ![c, a, b]⟩) (p : Fin a) (q : Fin b) (r : Fin c) :
    transpose ⟨3, ![c, a, b]⟩ [2, 0, 1] x h (ix3 r p q) = x (ix3 p q r) :=
  transpose_apply _ x h _ _ fun d => match d with | ⟨0, _⟩ => rfl | ⟨1, _⟩ => rfl | ⟨2, _⟩ => rfl

/-- An `[a, b]` array given a trailing unit axis reads, at `(p, q, u)`, the operand at `(p, q)`. -/
theorem cast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array spread over `c` entries of its last axis reads, at `(p, q, r)`, the operand at `(p, q, 0)`. -/
theorem spread_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A sum over the last of three axes: the `add` reduction of an `[a, b, c]` array over axis 2 reads, at `(p, q)`, the
    sum of the `c` entries `(p, q, ·)` (the accumulator is the sum's neutral element, so it contributes nothing). -/
theorem sumLast3_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  show ∑ k : Fin c, src (h.lift (ix2 p q) k) = _
  refine Finset.sum_congr rfl fun k _ => congrArg src ?_
  funext d; apply Fin.ext
  match d with
  | ⟨0, _⟩ => rfl
  | ⟨1, _⟩ => rfl
  | ⟨2, _⟩ => rfl

end Cert.LibFlatten
-- ==== Proof.LibRank3Unit.lean ====
/-
  Unit axes inside small arrays, read at one index, for any extents and any entries.

  A matrix [a, c] given a unit middle axis is the same entries as [a, 1, c]; spreading that unit axis over b copies puts
  the entry (p, r) at every (p, q, r). A rank-3 array with a unit leading axis spread over a copies puts (q, r) at every
  (p, q, r). A vector [c] viewed as [1, 1, c] and spread over [a, b, c] puts its entry r at every (p, q, r). A column
  [a, 1] viewed as the vector [a] keeps its entries.
-/
import Idealize.ShloMosaic.Lib.Pipeline.Value
import Idealize.ShloMosaic.Lib.ValueIdx

namespace Cert.LibRank3Unit

open Idealize.ShloMosaic Idealize.ShloMosaic.ValueIdx

variable {α : Type}

/-- An `[a, c]` matrix given a unit middle axis reads, at `(p, u, r)`, the operand at `(p, r)`. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- An `[a, 1, c]` array spread over `b` entries of its middle axis reads, at `(p, q, r)`, the operand at `(p, 0, r)`. -/
theorem spread_a1c_abc {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array spread over `a` leading entries reads, at `(p, q, r)`, the operand at `(0, q, r)`. -/
theorem spread_1bc_abc {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[c]` vector viewed as `[1, 1, c]` reads, at `(u, u', r)`, the operand at `r`. -/
theorem cast_c_11c {c : ℕ} (x : (⟨1, ![c]⟩ : Shape).Idx → α)
    (h : (⟨1, ![c]⟩ : Shape).ShapeCasts ⟨3, ![1, 1, c]⟩) (u u' : Fin 1) (r : Fin c) :
    shapeCast ⟨3, ![1, 1, c]⟩ x h (ix3 u u' r) = x (ix1 r) :=
  shapeCast_apply x h _ _ (by
    have hu : u.val = 0 := by omega
    have hu' : u'.val = 0 := by omega
    rw [Shape.rowMajor_val_one, Shape.rowMajor_val_three]
    show r.val = (u.val * 1 + u'.val) * c + r.val
    rw [hu, hu']
    simp)

/-- A `[1, 1, c]` array spread over `[a, b, c]` reads, at `(p, q, r)`, the operand at `(0, 0, r)`. -/
theorem spread_11c_abc {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An `[a, 1]` column viewed as the vector `[a]` reads, at `p`, the operand at `(p, u)`. -/
theorem cast_a1_a {a : ℕ} (x : (⟨2, ![a, 1]⟩ : Shape).Idx → α)
    (h : (⟨2, ![a, 1]⟩ : Shape).ShapeCasts ⟨1, ![a]⟩) (p : Fin a) (u : Fin 1) :
    shapeCast ⟨1, ![a]⟩ x h (ix1 p) = x (ix2 p u) :=
  shapeCast_apply x h _ _ (by
    have hu : u.val = 0 := by omega
    rw [Shape.rowMajor_val_two, Shape.rowMajor_val_one]
    show p.val * 1 + u.val = p.val
    rw [hu, Nat.mul_one, Nat.add_zero])

end Cert.LibRank3Unit
-- ==== Proof.LibSumMid3.lean ====
/-
  A sum over the MIDDLE of three axes read at one index, over the extended reals: summing an [a, b, c] array along its
  second coordinate gives, at (p, r), the sum of the b entries (p, ·, r) — for any extents and any float format. The
  inserted index that the library's one-axis reduction law speaks of is, at literal rank three, the triple (p, k, r).
-/
import Idealize.ShloMosaic.Lib.ValueIdx
import Idealize.ShloMosaic.PureOps.Ideal.Laws

open scoped BigOperators

namespace Cert.LibSumMid3

open Idealize.ShloMosaic Idealize.ShloMosaic.ValueIdx

/-- The `add` reduction of an `[a, b, c]` array over axis 1 reads, at `(p, r)`, the sum of the `b` entries
    `(p, ·, r)` (the accumulator is the sum's neutral element, so it contributes nothing). -/
theorem sumMid3_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) := by
  refine (Ideal.multiReduction_add_single src acc h hφ hacc (ix2 p r)).trans ?_
  show ∑ k : Fin b, src (h.lift (ix2 p r) k) = _
  refine Finset.sum_congr rfl fun k _ => congrArg src ?_
  funext d; apply Fin.ext
  match d with
  | ⟨0, _⟩ => rfl
  | ⟨1, _⟩ => rfl
  | ⟨2, _⟩ => rfl

end Cert.LibSumMid3
-- ==== Proof.KernelRows.lean ====
/-
  The kernel body's arithmetic read one batch row at a time, over the extended reals.

  Every operation of the body acts row by row on its blocks: it is pointwise, or spreads a row's value along a context
  or a lane axis, or reduces along a context or a lane axis. So at row p of a block each of the body's values is the
  corresponding value of the specification, computed from row p of the input blocks alone:
    the neighbour scores are scoreN of row p of er, et and the neighbour context block;
    the two neighbour hinge scores are the negated norms of the softmax mix of the context rows minus row p of eh, ehn;
    the path terms likewise from scoreP; the triple term from rows p of the six embedding blocks;
  and the step adds the three hinge terms of row p to row p of the accumulator.
-/
import proofs.«101089_j38465727103247_2_alg».proof.Proof.KernelBlock
import proofs.«101089_j38465727103247_2_alg».proof.Proof.Spec
import proofs.«101089_j38465727103247_2_alg».proof.Proof.LibKeepdims
import proofs.«101089_j38465727103247_2_alg».proof.Proof.LibRowSum
import proofs.«101089_j38465727103247_2_alg».proof.Proof.LibFlatten
import proofs.«101089_j38465727103247_2_alg».proof.Proof.LibRank3Unit
import proofs.«101089_j38465727103247_2_alg».proof.Proof.LibSumMid3
import Idealize.ShloMosaic.Lib.ValueIdx
import Idealize.ShloMosaic.Lib.Pipeline.Value
import Idealize.ShloMosaic.PureOps.Ideal.Laws

set_option maxRecDepth 16384

open scoped BigOperators

noncomputable section

open Idealize.ShloMosaic Idealize.ShloMosaic.ValueIdx

namespace Cert.KernelIdeal.Rows

open Cert.KernelIdeal Cert.KernelIdeal.Gen Cert.KernelIdeal.Block Cert.AttnLoss

/-! ## Pointwise operations and the body's reductions at an index -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl

/-- A sum over the lanes of a context block. -/
theorem sumLanes3 (src : FVec Ideal S256x10x256 .f32) (hφ : FKind.Formats .f32)
    (hacc : (0x00000000#32 : BitVec 32) = 0x00000000#32) (p : Fin 256) (q : Fin 10) :
    multiReduction .add [2] S256x10 src 0x00000000#32 reduces_S256x10x256_S256x10 hφ hacc (ix2 p q)
      = ∑ k : Fin 256, src (ix3 p q k) :=
  LibFlatten.sumLast3_apply src _ _ hφ hacc p q

/-- A sum over the context rows of a context block. -/
theorem sumCtx3 (src : FVec Ideal S256x10x256 .f32) (hφ : FKind.Formats .f32)
    (hacc : (0x00000000#32 : BitVec 32) = 0x00000000#32) (p : Fin 256) (r : Fin 256) :
    multiReduction .add [1] S256x256 src 0x00000000#32 reduces_S256x10x256_S256x256 hφ hacc (ix2 p r)
      = ∑ k : Fin 10, src (ix3 p k r) :=
  LibSumMid3.sumMid3_apply src _ _ hφ hacc p r

/-- A sum over the lanes of an embedding block. -/
theorem sumLanes2 (src : FVec Ideal S256x256 .f32) (hφ : FKind.Formats .f32)
    (hacc : (0x00000000#32 : BitVec 32) = 0x00000000#32) (p : Fin 256) :
    multiReduction .add [1] S256 src 0x00000000#32 reduces_S256x256_S256 hφ hacc (ix1 p)
      = ∑ k : Fin 256, src (ix2 p k) :=
  LibRowSum.rowSum_apply src _ _ hφ hacc p

/-- A sum over the context rows of a score block. -/
theorem sumCtx2 (src : FVec Ideal S256x10 .f32) (hφ : FKind.Formats .f32)
    (hacc : (0x00000000#32 : BitVec 32) = 0x00000000#32) (p : Fin 256) :
    multiReduction .add [1] S256 src 0x00000000#32 reduces_S256x10_S256 hφ hacc (ix1 p)
      = ∑ k : Fin 10, src (ix2 p k) :=
  LibRowSum.rowSum_apply src _ _ hφ hacc p

/-- The largest score of a row. -/
theorem maxCtx2 (src : FVec Ideal S256x10 .f32) (hφ : FKind.Formats .f32)
    (hacc : (0xFF800000#32 : BitVec 32) = 0xFF800000#32) (p : Fin 256) :
    multiReduction .maximumf [1] S256 src 0xFF800000#32 reduces_S256x10_S256 hφ hacc (ix1 p)
      = (Finset.univ : Finset (Fin 10)).fold max negInf (fun k => src (ix2 p k)) :=
  LibKeepdims.rowMax_apply src _ _ hφ hacc p

/-! ## Recurring patterns of the body, over any source array -/

/-- The negated norm over the lanes of a context block. -/
theorem negNorm3 (z : FVec Ideal S256x10x256 .f32) (hφ : FKind.Formats .f32)
    (hacc : (0x00000000#32 : BitVec 32) = 0x00000000#32) (p : Fin 256) (q : Fin 10) :
    subf (broadcast S256x10 (Scalar.ofBits (F := Ideal) .f32 0x00000000#32))
        (sqrt (multiReduction .add [2] S256x10 (mulf z z) 0x00000000#32 reduces_S256x10x256_S256x10 hφ hacc)) (ix2 p q)
      = negNorm (fun c => z (ix3 p q c)) := by
  rw [subf_apply, sqrt_apply, sumLanes3]
  simp only [broadcast_apply, mulf_apply, LibKeepdims.scalar_ofBits, Ideal.ofBits_zero_f32, zero_sub, negNorm]

/-- The negated norm over the lanes of an embedding block, kept as a one-column block. -/
theorem negNorm2 (z : FVec Ideal S256x256 .f32) (hφ : FKind.Formats .f32)
    (hacc : (0x00000000#32 : BitVec 32) = 0x00000000#32) (p : Fin 256) (u : Fin 1) :
    subf (broadcast S256x1 (Scalar.ofBits (F := Ideal) .f32 0x00000000#32))
        (sqrt (shapeCast S256x1 (multiReduction .add [1] S256 (mulf z z) 0x00000000#32 reduces_S256x256_S256 hφ hacc)
          shapeCasts_S256_S256x1)) (ix2 p u)
      = negNorm (fun c => z (ix2 p c)) := by
  rw [subf_apply, sqrt_apply, LibKeepdims.shapeCast_a_a1_apply, sumLanes2]
  simp only [broadcast_apply, mulf_apply, LibKeepdims.scalar_ofBits, Ideal.ofBits_zero_f32, zero_sub, negNorm]

/-- A row's sum of exponentials spread back over the row. -/
theorem den_apply (e : FVec Ideal S256x10 .f32) (hφ : FKind.Formats .f32)
    (hacc : (0x00000000#32 : BitVec 32) = 0x00000000#32) (p : Fin 256) (q : Fin 10) :
    broadcastTo S256x10 (shapeCast S256x1 (multiReduction .add [1] S256 e 0x00000000#32 reduces_S256x10_S256 hφ hacc)
        shapeCasts_S256_S256x1) broadcasts_S256x1_S256x10 (ix2 p q)
      = ∑ k : Fin 10, e (ix2 p k) := by
  rw [LibKeepdims.broadcastTo_a1_ab_apply, LibKeepdims.shapeCast_a_a1_apply, sumCtx2]

/-- The exponential of a score after the row's largest score (bounded below by minus infinity) is subtracted. -/
theorem soft_apply (s : FVec Ideal S256x10 .f32) (mx : FVec Ideal S256 .f32) (cst : Ideal .f32) (hc : cst = negInf)
    (hmx : ∀ p : Fin 256, mx (ix1 p) = (Finset.univ : Finset (Fin 10)).fold max negInf (fun k => s (ix2 p k)))
    (p : Fin 256) (q : Fin 10) :
    exp (subf s (broadcastTo S256x10 (shapeCast S256x1 (maximumf (broadcast S256 cst) mx) shapeCasts_S256_S256x1)
        broadcasts_S256x1_S256x10)) (ix2 p q)
      = soft (fun k => s (ix2 p k)) q := by
  subst hc
  simp only [exp_apply, subf_apply, LibKeepdims.broadcastTo_a1_ab_apply, LibKeepdims.shapeCast_a_a1_apply, maximumf_apply,
    broadcast_apply, hmx, soft, rowTop]

/-- The context rows weighted by quotients of two score blocks and summed over the context axis. -/
theorem mix_apply (e den : FVec Ideal S256x10 .f32) (x : FVec Ideal S256x10x256 .f32) (hφ : FKind.Formats .f32)
    (hacc : (0x00000000#32 : BitVec 32) = 0x00000000#32) (p : Fin 256) (c : Fin 256) :
    multiReduction .add [1] S256x256
        (mulf (broadcastTo S256x10x256 (shapeCast S256x10x1 (divf e den) shapeCasts_S256x10_S256x10x1)
          broadcasts_S256x10x1_S256x10x256) x)
        0x00000000#32 reduces_S256x10x256_S256x256 hφ hacc (ix2 p c)
      = ∑ j : Fin 10, Ideal.div (e (ix2 p j)) (den (ix2 p j)) * x (ix3 p j c) := by
  rw [sumCtx3]
  refine Finset.sum_congr rfl fun j _ => ?_
  rw [mulf_apply, LibFlatten.spread_ab1_abc_apply, LibFlatten.cast_ab_ab1_apply, divf_apply]

/-! ## The body's values at a row -/

/-- The neighbour scores of row p. -/
theorem pay11_apply (x1 x2 : Vec Ideal S256x256 .f32) (x6 : Vec Ideal S256x10x256 .f32) (p : Fin 256) (q : Fin 10) :
    k0_pay11 (F := Ideal) x1 x2 x6 (ix2 p q)
      = scoreN (fun c => x1 (ix2 p c)) (fun c => x2 (ix2 p c)) (fun j c => x6 (ix3 p j c)) q := by
  unfold k0_pay11 k0_pay9 k0_pay4 k0_pay5
  refine (negNorm3 _ _ _ p q).trans ?_
  unfold scoreN
  congr 1
  funext c
  simp only [subf_apply, addf_apply, broadcast_apply, shapeCast_self, LibKeepdims.scalar_ofBits, Ideal.ofBits_zero_f32,
    zero_sub, LibRank3Unit.spread_a1c_abc, LibRank3Unit.cast_ac_a1c]

/-- The largest neighbour score of row p. -/
theorem pay12_apply (x1 x2 : Vec Ideal S256x256 .f32) (x6 : Vec Ideal S256x10x256 .f32) (p : Fin 256) :
    k0_pay12 (F := Ideal) x1 x2 x6 (ix1 p)
      = (Finset.univ : Finset (Fin 10)).fold max negInf (fun k => k0_pay11 (F := Ideal) x1 x2 x6 (ix2 p k)) := by
  unfold k0_pay12
  exact maxCtx2 _ _ _ p

/-- The softmax mix of the neighbour context rows of row p. -/
theorem pay13_apply (v16 : FVec Ideal S256x10x256 .f32) (v31 : FVec Ideal S256x10 .f32) (v32 : FVec Ideal S256 .f32)
    (cst : Ideal .f32) (hc : cst = negInf)
    (hmx : ∀ p : Fin 256, v32 (ix1 p) = (Finset.univ : Finset (Fin 10)).fold max negInf (fun k => v31 (ix2 p k)))
    (p : Fin 256) (c : Fin 256) :
    k0_pay13 (F := Ideal) v16 v31 v32 cst (ix2 p c) = mix (fun j => v31 (ix2 p j)) (fun j c => v16 (ix3 p j c)) c := by
  unfold k0_pay13
  refine (mix_apply _ _ _ _ _ p c).trans ?_
  unfold mix weight
  refine Finset.sum_congr rfl fun j _ => ?_
  rw [den_apply]
  simp only [soft_apply v31 v32 cst hc hmx]

/-- A neighbour hinge score of row p: the negated norm of the mix minus an embedding row. -/
theorem pay14_apply (v4 : FVec Ideal S256x256 .f32) (v16 : FVec Ideal S256x10x256 .f32) (v31 : FVec Ideal S256x10 .f32)
    (v32 : FVec Ideal S256 .f32) (cst : Ideal .f32) (hc : cst = negInf)
    (hmx : ∀ p : Fin 256, v32 (ix1 p) = (Finset.univ : Finset (Fin 10)).fold max negInf (fun k => v31 (ix2 p k)))
    (p : Fin 256) (u : Fin 1) :
    k0_pay14 (F := Ideal) v4 v16 v31 v32 cst (ix2 p u)
      = negNorm (fun c => mix (fun j => v31 (ix2 p j)) (fun j c => v16 (ix3 p j c)) c - v4 (ix2 p c)) := by
  unfold k0_pay14
  refine (negNorm2 _ _ _ p u).trans ?_
  congr 1
  funext c
  rw [subf_apply, pay13_apply v16 v31 v32 cst hc hmx]

theorem pay15_apply (v10 : FVec Ideal S256x256 .f32) (v16 : FVec Ideal S256x10x256 .f32) (v31 : FVec Ideal S256x10 .f32)
    (v32 : FVec Ideal S256 .f32) (cst : Ideal .f32) (hc : cst = negInf)
    (hmx : ∀ p : Fin 256, v32 (ix1 p) = (Finset.univ : Finset (Fin 10)).fold max negInf (fun k => v31 (ix2 p k)))
    (p : Fin 256) (u : Fin 1) :
    k0_pay15 (F := Ideal) v10 v16 v31 v32 cst (ix2 p u)
      = negNorm (fun c => mix (fun j => v31 (ix2 p j)) (fun j c => v16 (ix3 p j c)) c - v10 (ix2 p c)) := by
  unfold k0_pay15
  refine (negNorm2 _ _ _ p u).trans ?_
  congr 1
  funext c
  rw [subf_apply, pay13_apply v16 v31 v32 cst hc hmx]

/-- The neighbour hinge term of row p. -/
theorem hingeN_apply (x0 x1 x2 x3 : Vec Ideal S256x256 .f32) (x6 : Vec Ideal S256x10x256 .f32) (p : Fin 256) (u : Fin 1) :
    hingeN (F := Ideal) x0 x1 x2 x3 x6 (ix2 p u)
      = lossN (fun c => x0 (ix2 p c)) (fun c => x3 (ix2 p c)) (fun c => x1 (ix2 p c)) (fun c => x2 (ix2 p c))
          (fun j c => x6 (ix3 p j c)) := by
  unfold hingeN k0_pay18 lossN hinge
  simp only [maximumf_apply, subf_apply, broadcast_apply, LibKeepdims.scalar_ofBits, Ideal.ofBits_zero_f32]
  rw [pay14_apply _ _ _ _ _ rfl (fun p => pay12_apply x1 x2 x6 p), pay15_apply _ _ _ _ _ rfl (fun p => pay12_apply x1 x2 x6 p)]
  simp only [k0_pay3, k0_pay6, k0_pay9, shapeCast_self, pay11_apply]

/-- The exponentials of the path scores of row p, after the largest is subtracted. -/
theorem pay16_apply (v4 v8 : FVec Ideal S256x256 .f32) (v18 : FVec Ideal S256x10x256 .f32) (p : Fin 256) (q : Fin 10) :
    k0_pay16 (F := Ideal) v4 v8 v18 (ix2 p q)
      = soft (scoreP (fun c => v4 (ix2 p c)) (fun c => v8 (ix2 p c)) (fun j c => v18 (ix3 p j c))) q := by
  unfold k0_pay16
  refine (soft_apply _ _ _ rfl (fun p => maxCtx2 _ _ _ p) p q).trans ?_
  refine congrArg (fun s => soft s q) (funext fun k => ?_)
  refine (negNorm3 _ _ _ p k).trans ?_
  unfold scoreP
  congr 1
  funext c
  simp only [subf_apply, addf_apply, LibRank3Unit.spread_a1c_abc, LibRank3Unit.cast_ac_a1c]

/-- Their sum over the context rows, spread back over the row. -/
theorem pay17_apply (v4 v8 : FVec Ideal S256x256 .f32) (v18 : FVec Ideal S256x10x256 .f32) (p : Fin 256) (q : Fin 10) :
    k0_pay17 (F := Ideal) v4 v8 v18 (ix2 p q) = ∑ k : Fin 10, k0_pay16 (F := Ideal) v4 v8 v18 (ix2 p k) := by
  unfold k0_pay17
  exact den_apply _ _ _ p q

/-- The path hinge term of row p, over any exponentials and their row sums. -/
theorem pay19_apply (v6 v12 : FVec Ideal S256x256 .f32) (v18 : FVec Ideal S256x10x256 .f32) (v78 v81 : FVec Ideal S256x10 .f32)
    (p : Fin 256) (u : Fin 1) :
    k0_pay19 (F := Ideal) v6 v12 v18 v78 v81 (ix2 p u)
      = hinge (negNorm fun c => (∑ j : Fin 10, Ideal.div (v78 (ix2 p j)) (v81 (ix2 p j)) * v18 (ix3 p j c)) - v6 (ix2 p c))
          (negNorm fun c => (∑ j : Fin 10, Ideal.div (v78 (ix2 p j)) (v81 (ix2 p j)) * v18 (ix3 p j c)) - v12 (ix2 p c)) := by
  unfold k0_pay19 hinge
  refine (maximumf_apply _ _ _).trans ?_
  refine congrArg₂ max ?_ ?_
  · simp only [broadcast_apply, LibKeepdims.scalar_ofBits, Ideal.ofBits_zero_f32]
  · refine (subf_apply _ _ _).trans ?_
    refine congrArg₂ (fun a b : EReal => a - b) ?_ ?_
    · simp only [broadcast_apply, LibKeepdims.scalar_ofBits]
    · refine (subf_apply _ _ _).trans ?_
      refine congrArg₂ (fun a b : EReal => a - b) ?_ ?_
      · refine (negNorm2 _ _ _ p u).trans ?_
        congr 1
        funext c
        rw [subf_apply, mix_apply]
      · refine (negNorm2 _ _ _ p u).trans ?_
        congr 1
        funext c
        rw [subf_apply, mix_apply]

/-- The path hinge term of row p. -/
theorem hingeP_apply (x0 x1 x2 x4 : Vec Ideal S256x256 .f32) (x7 : Vec Ideal S256x10x256 .f32) (p : Fin 256) (u : Fin 1) :
    hingeP (F := Ideal) x0 x1 x2 x4 x7 (ix2 p u)
      = lossP (fun c => x0 (ix2 p c)) (fun c => x1 (ix2 p c)) (fun c => x4 (ix2 p c)) (fun c => x2 (ix2 p c))
          (fun j c => x7 (ix3 p j c)) := by
  unfold hingeP
  rw [pay19_apply]
  unfold lossP mix weight
  simp only [pay16_apply, pay17_apply, k0_pay3, k0_pay4, k0_pay5, k0_pay7, k0_pay10, shapeCast_self]

/-- The difference of the two triple scores of row p. -/
theorem diffT_apply (x0 x1 x2 x3 x4 x5 : Vec Ideal S256x256 .f32) (p : Fin 256) (u : Fin 1) :
    diffT (F := Ideal) x0 x1 x2 x3 x4 x5 (ix2 p u)
      = negNorm (fun c => (x0 (ix2 p c) + x1 (ix2 p c)) - x2 (ix2 p c))
        - negNorm (fun c => (x3 (ix2 p c) + x4 (ix2 p c)) - x5 (ix2 p c)) := by
  unfold diffT k0_pay20
  refine (subf_apply _ _ _).trans ?_
  refine congrArg₂ (fun a b : EReal => a - b) ?_ ?_
  · refine (negNorm2 _ _ _ p u).trans ?_
    congr 1
    funext c
    simp only [subf_apply, addf_apply, k0_pay3, k0_pay4, k0_pay5, shapeCast_self]
  · refine (negNorm2 _ _ _ p u).trans ?_
    congr 1
    funext c
    simp only [subf_apply, addf_apply, k0_pay6, k0_pay7, k0_pay8, shapeCast_self]

/-- The step at row p: the accumulator's entry plus the three hinge terms of the row. -/
theorem stepLoss_apply (x0 x1 x2 x3 x4 x5 : Vec Ideal S256x256 .f32) (x6 x7 : Vec Ideal S256x10x256 .f32)
    (acc : Vec Ideal S256x1 .f32) (p : Fin 256) (u : Fin 1) :
    stepLoss (F := Ideal) x0 x1 x2 x3 x4 x5 x6 x7 acc (ix2 p u)
      = acc (ix2 p u)
        + ((lossN (fun c => x0 (ix2 p c)) (fun c => x3 (ix2 p c)) (fun c => x1 (ix2 p c)) (fun c => x2 (ix2 p c))
              (fun j c => x6 (ix3 p j c))
            + lossP (fun c => x0 (ix2 p c)) (fun c => x1 (ix2 p c)) (fun c => x4 (ix2 p c)) (fun c => x2 (ix2 p c))
              (fun j c => x7 (ix3 p j c)))
          + lossT (fun c => x0 (ix2 p c)) (fun c => x1 (ix2 p c)) (fun c => x2 (ix2 p c)) (fun c => x3 (ix2 p c))
              (fun c => x4 (ix2 p c)) (fun c => x5 (ix2 p c))) := by
  unfold stepLoss k0_pay1 lossT hinge
  simp only [shapeCast_self, addf_apply, maximumf_apply, subf_apply, broadcast_apply, LibKeepdims.scalar_ofBits,
    Ideal.ofBits_zero_f32, Ideal.ofBits_def, hingeN_apply, hingeP_apply, diffT_apply]

/-- The zero column the first point stores. -/
theorem zeroCol_apply (p : Fin 256) (u : Fin 1) : k0_pay2 (F := Ideal) (ix2 p u) = 0 := by
  unfold k0_pay2
  simp only [shapeCast_self, broadcast_apply, LibKeepdims.scalar_ofBits, Ideal.ofBits_zero_f32]

end Cert.KernelIdeal.Rows

end
-- ==== Proof.LibHostMid3.lean ====
/-
  Host-side facts about a matrix spread along a new middle axis, sums over the middle of three axes, and sums over
  every entry, read at one entry over the extended reals, for any extents.

  A matrix [a, c] placed along axes 0 and 2 of [a, 1, c], and that array spread over b entries of its middle axis, read
  the matrix entry (p, r) at every (p, q, r). The host's add-reduce of an [a, b, c] array over its middle axis reads, at
  (p, r), the initial value plus the sum of the b entries (p, ., r). The host's add-reduce of any array over all of its
  axes is the initial value plus the sum of every entry; a sum over the indices of a vector, or of a one-column matrix,
  is the sum over its one free coordinate.
-/
import Idealize.ShloMosaic.Lib.Pipeline.Value
import Idealize.ShloMosaic.Lib.ValueIdx
import Idealize.ShloMosaic.PureOps.Ideal.Laws

open scoped BigOperators

noncomputable section

namespace Cert.LibHostMid3

open Idealize.ShloMosaic Idealize.ShloMosaic.ValueIdx

variable {α : Type}

/-- A matrix placed along axes 0 and 2 of [a, 1, c] reads, at (p, u, r), its entry (p, r). -/
theorem midOfMat_apply {a c : ℕ} (v : (⟨2, ![a, c]⟩ : Shape).Idx → α)
    (h : (⟨2, ![a, c]⟩ : Shape).BroadcastsInDim ⟨3, ![a, 1, c]⟩ ![0, 2]) (p : Fin a) (u : Fin 1) (r : Fin c) :
    broadcastInDim ⟨3, ![a, 1, c]⟩ ![0, 2] h v (ix3 p u r) = v (ix2 p r) :=
  broadcastInDim_apply ![0, 2] h v (ix3 p u r) (ix2 p r) fun ax => by
    match ax with
    | ⟨0, _⟩ =>
      show p.val = if a = 1 then 0 else p.val
      split
      · have := p.isLt; omega
      · rfl
    | ⟨1, _⟩ =>
      show r.val = if c = 1 then 0 else r.val
      split
      · have := r.isLt; omega
      · rfl

/-- An [a, 1, c] array spread over b entries of its middle axis (axes kept in place) reads, at (p, q, r), its entry
    (p, 0, r). -/
theorem spreadMid_apply {a b c : ℕ} (w : (⟨3, ![a, 1, c]⟩ : Shape).Idx → α)
    (h : (⟨3, ![a, 1, c]⟩ : Shape).BroadcastsInDim ⟨3, ![a, b, c]⟩ ![0, 1, 2]) (p : Fin a) (q : Fin b) (r : Fin c) :
    broadcastInDim ⟨3, ![a, b, c]⟩ ![0, 1, 2] h w (ix3 p q r) = w (ix3 p (0 : Fin 1) r) :=
  broadcastInDim_apply ![0, 1, 2] h w (ix3 p q r) (ix3 p (0 : Fin 1) r) fun ax => by
    match ax with
    | ⟨0, _⟩ =>
      show p.val = if a = 1 then 0 else p.val
      split
      · have := p.isLt; omega
      · rfl
    | ⟨1, _⟩ => rfl
    | ⟨2, _⟩ =>
      show r.val = if c = 1 then 0 else r.val
      split
      · have := r.isLt; omega
      · rfl

/-- A sum over the middle of three axes on the host: the add-reduce of an [a, b, c] array over axis 1 reads, at
    (p, r), the initial value's one entry plus the sum of the b entries (p, ., r). -/
theorem hostSumMid3_apply {a b c : ℕ} {φ : FTy} {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (r : Fin c) :
    Host.reduceAdd x init h' hu (ix2 p r) = init (Shape.Idx.first hu) + ∑ k : Fin b, x (ix3 p k r) := by
  refine (Ideal.hostReduceAdd_single h' h x (init (Shape.Idx.first hu)) (ix2 p r)).trans ?_
  show init (Shape.Idx.first hu) + ∑ k : Fin b, x (h.lift (ix2 p r) k) = _
  refine congrArg (init (Shape.Idx.first hu) + ·) (Finset.sum_congr rfl fun k _ => congrArg x ?_)
  funext d; apply Fin.ext
  match d with
  | ⟨0, _⟩ => rfl
  | ⟨1, _⟩ => rfl
  | ⟨2, _⟩ => rfl

/-- The host's add-reduce of an array over all of its axes is, at the one index of the rank-zero result, the initial
    value's one entry plus the sum of every entry. -/
theorem hostSumAll_apply {s : Shape} {axes : List (Fin s.rank)} {φ : FTy} {u : Shape} (x : FVec Ideal s φ)
    (init : u.Idx → Ideal φ) (h' : s.ReducesTo axes ⟨0, ![]⟩) (hu : 0 < u.numel) (j : (⟨0, ![]⟩ : Shape).Idx) :
    Host.reduceAdd x init h' hu j = init (Shape.Idx.first hu) + ∑ i : s.Idx, x i :=
  Ideal.hostReduceAdd_total h' (fun b => b.elim0) x (init (Shape.Idx.first hu)) j

/-- The indices of a vector of n entries are its n coordinates ... -/
def idxEquiv1 {n : Nat} : (⟨1, ![n]⟩ : Shape).Idx ≃ Fin n where
  toFun i := i 0
  invFun a := ix1 a
  left_inv i := (eq_ix1 i).symm
  right_inv _ := rfl

/-- ... so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a one-column matrix is the sum over its rows. -/
theorem sum_idxCol {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibHostMid3

end
-- ==== Proof.KernelAcc.lean ====
/-
  The accumulator across the grid, over the extended reals.

  Point t adds to every row p of the carried one-column accumulator the loss of row p of block t (the three hinge terms
  of the specification at that row of the point's input blocks). So after point n the accumulator's row p holds zero plus
  the losses of row p of blocks 0, 1, ..., n, in that order: by induction on the point, the first point starting from
  the zero column it has just stored. The last point copies the accumulated column to the output block, and the host's
  sum of that column over all its entries is zero plus, over the positions p, the accumulated sums over the 64 blocks.
-/
import proofs.«101089_j38465727103247_2_alg».proof.Proof.KernelRows
import proofs.«101089_j38465727103247_2_alg».proof.Proof.LibHostMid3

set_option maxRecDepth 16384

open scoped BigOperators

noncomputable section

open Idealize.ShloMosaic Idealize.ShloMosaic.ValueIdx Idealize.ShloMosaic.TcCoe Idealize.SL.Sem

namespace Cert.KernelIdeal.Acc

open Cert.KernelIdeal Cert.KernelIdeal.Gen Cert.KernelIdeal.Block Cert.KernelIdeal.Rows Cert.AttnLoss

variable (m : (ℓ : Loc nD τ sig) → Buf (Elt Ideal) ℓ)

/-- The eight input blocks of point t, typed as the body takes them. -/
abbrev B0 (c : Dev nD) (t : Fin cfg0.N) : Vec Ideal S256x256 .f32 := iblk m c 0 t
abbrev B1 (c : Dev nD) (t : Fin cfg0.N) : Vec Ideal S256x256 .f32 := iblk m c 1 t
abbrev B2 (c : Dev nD) (t : Fin cfg0.N) : Vec Ideal S256x256 .f32 := iblk m c 2 t
abbrev B3 (c : Dev nD) (t : Fin cfg0.N) : Vec Ideal S256x256 .f32 := iblk m c 3 t
abbrev B4 (c : Dev nD) (t : Fin cfg0.N) : Vec Ideal S256x256 .f32 := iblk m c 4 t
abbrev B5 (c : Dev nD) (t : Fin cfg0.N) : Vec Ideal S256x256 .f32 := iblk m c 5 t
abbrev B6 (c : Dev nD) (t : Fin cfg0.N) : Vec Ideal S256x10x256 .f32 := iblk m c 6 t
abbrev B7 (c : Dev nD) (t : Fin cfg0.N) : Vec Ideal S256x10x256 .f32 := iblk m c 7 t

/-- The loss of row p of block t: the three hinge terms at that row of the point's input blocks. -/
def rowLoss (c : Dev nD) (t : Fin cfg0.N) (p : Fin 256) : EReal :=
  (lossN (fun cc => B0 m c t (ix2 p cc)) (fun cc => B3 m c t (ix2 p cc)) (fun cc => B1 m c t (ix2 p cc))
      (fun cc => B2 m c t (ix2 p cc)) (fun j cc => B6 m c t (ix3 p j cc))
    + lossP (fun cc => B0 m c t (ix2 p cc)) (fun cc => B1 m c t (ix2 p cc)) (fun cc => B4 m c t (ix2 p cc))
      (fun cc => B2 m c t (ix2 p cc)) (fun j cc => B7 m c t (ix3 p j cc)))
  + lossT (fun cc => B0 m c t (ix2 p cc)) (fun cc => B1 m c t (ix2 p cc)) (fun cc => B2 m c t (ix2 p cc))
      (fun cc => B3 m c t (ix2 p cc)) (fun cc => B4 m c t (ix2 p cc)) (fun cc => B5 m c t (ix2 p cc))

/-- The step of point t at row p. -/
theorem step_apply (c : Dev nD) (t : Fin cfg0.N) (acc : Vec Ideal S256x1 .f32) (p : Fin 256) (u : Fin 1) :
    stepLoss (F := Ideal) (iblk m c 0 t) (iblk m c 1 t) (iblk m c 2 t) (iblk m c 3 t) (iblk m c 4 t) (iblk m c 5 t) (iblk m c 6 t) (iblk m c 7 t) acc (ix2 p u) = acc (ix2 p u) + rowLoss m c t p :=
  stepLoss_apply (B0 m c t) (B1 m c t) (B2 m c t) (B3 m c t) (B4 m c t) (B5 m c t) (B6 m c t) (B7 m c t) acc p u

/-- Zero plus the losses of row p of blocks 0 to n, in order. -/
def partialSum (c : Dev nD) (p : Fin 256) (n : ℕ) : EReal :=
  (0 : EReal) + ∑ t ∈ Finset.range (n + 1), (if ht : t < cfg0.N then rowLoss m c ⟨t, ht⟩ p else 0)

theorem partialSum_zero (c : Dev nD) (p : Fin 256) (h : 0 < cfg0.N) :
    (0 : EReal) + rowLoss m c ⟨0, h⟩ p = partialSum m c p 0 := by
  unfold partialSum
  simp only [Nat.zero_add, Finset.sum_range_one, dif_pos h]

theorem partialSum_succ (c : Dev nD) (p : Fin 256) (n : ℕ) (h : n + 1 < cfg0.N) :
    partialSum m c p n + rowLoss m c ⟨n + 1, h⟩ p = partialSum m c p (n + 1) := by
  unfold partialSum
  rw [Finset.sum_range_succ _ (n + 1), dif_pos h, add_assoc]

/-- The first point at row p: the step over the zero column. -/
theorem soutA_row (c : Dev nD) (t : Fin cfg0.N) (hc0 : cond0_0 (grid0.coords t)) (hc1 : ¬cond0_1 (grid0.coords t))
    (p : Fin 256) (u : Fin 1) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) (ix2 p u) = (0 : EReal) + rowLoss m c t p := by
  rw [sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t), step_apply, zeroCol_apply]

/-- A middle point at row p. -/
theorem soutB_row (c : Dev nD) (t : Fin cfg0.N) (hc0 : ¬cond0_0 (grid0.coords t)) (hc1 : ¬cond0_1 (grid0.coords t))
    (acc : Vec Ideal S256x1 .f32) (p : Fin 256) (u : Fin 1) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) acc (ix2 p u) = acc (ix2 p u) + rowLoss m c t p := by
  rw [sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) acc, step_apply]

/-- The last point at row p: the accumulator, and the output block. -/
theorem soutC_row (c : Dev nD) (t : Fin cfg0.N) (hc0 : ¬cond0_0 (grid0.coords t)) (hc1 : cond0_1 (grid0.coords t))
    (acc : Vec Ideal S256x1 .f32) (p : Fin 256) (u : Fin 1) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) acc (ix2 p u) = acc (ix2 p u) + rowLoss m c t p := by
  rw [sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) acc, step_apply]

theorem outC_row (c : Dev nD) (t : Fin cfg0.N) (hc0 : ¬cond0_0 (grid0.coords t)) (hc1 : cond0_1 (grid0.coords t))
    (acc : Vec Ideal S256x1 .f32) (p : Fin 256) (u : Fin 1) :
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) acc (ix2 p u) = acc (ix2 p u) + rowLoss m c t p := by
  rw [out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hc0 hc1 (iblk m c 0 t) (iblk m c 1 t) (iblk m c 2 t) (iblk m c 3 t) (iblk m c 4 t) (iblk m c 5 t) (iblk m c 6 t) (iblk m c 7 t) acc, step_apply]

theorem snd_of_eq {α β : Type} {z : α × β} {a : α} {b : β} (e : z = (a, b)) : z.2 = b := by rw [e]
theorem fst_of_eq {α β : Type} {z : α × β} {a : α} {b : β} (e : z = (a, b)) : z.1 = a := by rw [e]

/-- After point n the carried accumulator's row p holds the partial sum up to block n; and after the last point so
    does the output block. -/
theorem acc_eq (c : Dev nD) : ∀ (n : ℕ) (h : n < cfg0.N) (p : Fin 256) (u : Fin 1),
    (outsAt0 m c n h).2 (ix2 p u) = partialSum m c p n
      ∧ (n % 64 = 63 → (outsAt0 m c n h).1 (ix2 p u) = partialSum m c p n)
  | 0, h, p, u => by
    have e := outsAt0_A m c ⟨0, h⟩ rfl (by show ¬(0 : ℕ) % 64 = 63; decide)
    refine ⟨?_, fun h63 => absurd h63 (by decide)⟩
    refine (congrFun (snd_of_eq e) (ix2 p u)).trans ?_
    refine (soutA_row m c ⟨0, h⟩ _ _ p u).trans ?_
    exact partialSum_zero m c p h
  | n + 1, h, p, u => by
    have hN : cfg0.N = 64 := N_0
    have h0 : ¬(⟨n + 1, h⟩ : Fin cfg0.N).val % 64 = 0 := by
      show ¬(n + 1) % 64 = 0
      omega
    have ih := (acc_eq c n (Nat.lt_of_succ_lt h) p u).1
    by_cases h1 : (⟨n + 1, h⟩ : Fin cfg0.N).val % 64 = 63
    · have e := outsAt0_C m c ⟨n + 1, h⟩ h0 h1
      refine ⟨?_, fun _ => ?_⟩
      · refine (congrFun (snd_of_eq e) (ix2 p u)).trans ?_
        refine (soutC_row m c ⟨n + 1, h⟩ _ _ _ p u).trans ?_
        refine (congrArg₂ (fun a b : EReal => a + b) ih rfl).trans ?_
        exact partialSum_succ m c p n h
      · refine (congrFun (fst_of_eq e) (ix2 p u)).trans ?_
        refine (outC_row m c ⟨n + 1, h⟩ _ _ _ p u).trans ?_
        refine (congrArg₂ (fun a b : EReal => a + b) ih rfl).trans ?_
        exact partialSum_succ m c p n h
    · have e := outsAt0_B m c ⟨n + 1, h⟩ h0 h1
      refine ⟨?_, fun h63 => absurd h63 h1⟩
      refine (congrFun (snd_of_eq e) (ix2 p u)).trans ?_
      refine (soutB_row m c ⟨n + 1, h⟩ _ _ _ p u).trans ?_
      refine (congrArg₂ (fun a b : EReal => a + b) ih rfl).trans ?_
      exact partialSum_succ m c p n h

/-- The last grid point. -/
abbrev t63 : Fin cfg0.N := ⟨63, by rw [show cfg0.N = 64 from N_0]; decide⟩

/-- The output block after the last point: the accumulated column. -/
def outCol (c : Dev nD) : Vec Ideal S256x1 .f32 := (outsAt0 m c t63.val t63.isLt).1

theorem outCol_apply (c : Dev nD) (p : Fin 256) (u : Fin 1) : outCol m c (ix2 p u) = partialSum m c p 63 :=
  (acc_eq m c 63 t63.isLt p u).2 (by decide)

/-- Block t of the 64, as a grid point. -/
abbrev pt (t : Fin 64) : Fin cfg0.N := ⟨t.val, by rw [show cfg0.N = 64 from N_0]; exact t.isLt⟩

theorem partialSum_last (c : Dev nD) (p : Fin 256) :
    partialSum m c p 63 = (0 : EReal) + ∑ t : Fin 64, rowLoss m c (pt t) p := by
  unfold partialSum
  show (0 : EReal) + ∑ t ∈ Finset.range 64, (if ht : t < cfg0.N then rowLoss m c ⟨t, ht⟩ p else 0) = _
  rw [← Fin.sum_univ_eq_sum_range (fun t => if ht : t < cfg0.N then rowLoss m c ⟨t, ht⟩ p else 0) 64]
  refine congrArg (fun s : EReal => (0 : EReal) + s) (Finset.sum_congr rfl fun t _ => ?_)
  exact dif_pos (pt t).isLt

/-- The host's sum of the output column over all its entries. -/
theorem total_apply (c : Dev nD) (j : S_.Idx) :
    Host.reduceAdd (outCol m c) (constant (F := Ideal) S_ .f32 0x00000000#32) reducesTo_S256x1_S_d0_1 h_S_ j
      = (0 : EReal) + ∑ p : Fin 256, ((0 : EReal) + ∑ t : Fin 64, rowLoss m c (pt t) p) := by
  rw [LibHostMid3.hostSumAll_apply (outCol m c) _ _ _ j, constant_apply, Ideal.ofBits_zero_f32, LibHostMid3.sum_idxCol]
  refine congrArg (fun s : EReal => (0 : EReal) + s) (Finset.sum_congr rfl fun p _ => ?_)
  rw [outCol_apply, partialSum_last]

end Cert.KernelIdeal.Acc

end
-- ==== Proof.KernelRun.lean ====
/-
  The kernel program's run, read: what its result holds.

  The output window is written back once, after the last grid point, and its one block is the whole 256 by 1 result array
  of the kernel call; so that array ends holding the accumulated column. The one host operation after the call sums the
  column over all its entries from zero. The program's result is therefore zero plus, over the positions p in a block,
  zero plus the losses of row p of the 64 blocks in order; the argument arrays end unchanged.
-/
import proofs.«101089_j38465727103247_2_alg».proof.Proof.KernelAcc
import Idealize.ShloMosaic.Lib.Pipeline.Value
import Idealize.ShloMosaic.Lib.StableHlo.Run

set_option maxRecDepth 16384

open scoped BigOperators

noncomputable section

open Idealize.ShloMosaic Idealize.ShloMosaic.ValueIdx Idealize.ShloMosaic.TcCoe Idealize.SL.Sem
open Idealize.ShloMosaic.Pipeline (Dat)

namespace Cert.KernelIdeal.Final

open Cert.KernelIdeal Cert.KernelIdeal.Gen Cert.KernelIdeal.Acc Cert.AttnLoss

variable (m : (ℓ : Loc nD τ sig) → Buf (Elt Ideal) ℓ) (ρ : Dev nD → PrngReg)

/-- The one write-back, after the last point, writes the accumulated column: block (0, 0) of the result array, read
    through zero offsets, is the array. -/
theorem flushed_eq (c : Dev nD) (t : Fin cfg0.N) (hf : (cfg0.win 8).flush t = true) :
    (dats m 0 c).flushed 8 t = ((cfg0.win 8).blk t).view.read (Elt Ideal) (outCol m c) := by
  have hN : cfg0.N = 64 := N_0
  have h63 : t.val = 63 := by have := (flush0_8 t).mp hf; have := t.isLt; omega
  obtain rfl : t = t63 := Fin.ext h63
  show (cfg0.win 8).cut (grid0.coords t63) ((dats m 0 c).after 8 t63) = _
  rw [after0_8]
  have hz' : (fun a => win0_8.index t63 a * main_v75.ty.shape.size a) = fun _ => 0 :=
    funext fun a => by fin_cases a <;> decide
  exact (Memref.read_access_unit_zero (Elt Ideal) main_v75 hz' (fun a => by rw [congrFun hz' a]; simp) (outCol m c)).symm

/-- So the result array of the kernel call ends holding the accumulated column. -/
theorem final_o (c : Dev nD) : (dats m 0 c).arrAt 8 cfg0.N = outCol m c :=
  (dats m 0 c).arrAt_eq_of_cover 8 (outCol m c) (flushed_eq m c) fun i =>
    ⟨t63, (flush0_8 t63).mpr rfl, by
      show i ∈ ((View.whole main_v75).slice (win0_8.rect t63)).set
      rw [View.set_slice_whole, Rect.mem_set_unit]
      intro a
      have h0 : (i 0 : Nat) < 256 := (i 0).isLt
      have h1 : (i 1 : Nat) < 1 := (i 1).isLt
      match a with
      | ⟨0, _⟩ =>
        show win0_8.index t63 0 * win0_8.size 0 ≤ (i 0 : Nat)
          ∧ (i 0 : Nat) < win0_8.index t63 0 * win0_8.size 0 + win0_8.xsize (grid0.coords t63) 0
        rw [show win0_8.index t63 0 * win0_8.size 0 = 0 from by decide +kernel,
          show win0_8.xsize (grid0.coords t63) 0 = 256 from by decide +kernel]
        omega
      | ⟨1, _⟩ =>
        show win0_8.index t63 1 * win0_8.size 1 ≤ (i 1 : Nat)
          ∧ (i 1 : Nat) < win0_8.index t63 1 * win0_8.size 1 + win0_8.xsize (grid0.coords t63) 1
        rw [show win0_8.index t63 1 * win0_8.size 1 = 0 from by decide +kernel,
          show win0_8.xsize (grid0.coords t63) 1 = 1 from by decide +kernel]
        omega⟩

/-- The program's result: the host's sum of the accumulated column over all its entries, from zero. -/
def kernelResult (c : Dev nD) : FVec Ideal S_ .f32 :=
  Host.reduceAdd (outCol m c) (constant (F := Ideal) S_ .f32 0x00000000#32) reducesTo_S256x1_S_d0_1 h_S_

/-- It is zero plus, over the positions in a block, zero plus the losses of that position's rows of the 64 blocks. -/
theorem kernelResult_apply (c : Dev nD) (j : S_.Idx) :
    kernelResult m c j = (0 : EReal) + ∑ p : Fin 256, ((0 : EReal) + ∑ t : Fin 64, rowLoss m c (pt t) p) :=
  total_apply m c j

/-- The host operation after the call reads the result array: the program's result is the sum of the column. -/
theorem tail_eq (c : Dev nD) :
    Pipeline.afterTail₀ cfgs (dats m) 0 (V0 m) [hostOps1] c main_v76 = kernelResult m c := by
  unfold kernelResult Pipeline.afterTail₀
  show StableHlo.after hostOps1 _ (Proc.devRef .tc main_v76) = _
  after_results
  have e : Pipeline.withArrays (cfgs 0).spec c (V0 m c) (fun w => (dats m 0 c).arrAt w (cfgs 0).N)
      (Proc.devRef .tc main_v75) = outCol m c :=
    (Pipeline.withArrays_arr spec0 launch0.win.arr_inj c _ _ 8).trans (final_o m c)
  rw [e]

/-- The run, read: the program's result is the host's sum of the accumulated column, the arguments unchanged. -/
theorem run : θ_run defs (onTc (τ := τ) (main (F := Ideal))) ⟨m, fun _ => 0, ρ⟩ (fun r => ∀ c : Dev nD,
      r.2.mem ((c.tc : Thread nD τ).loc main_v76) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v76 (Pipeline.mem_restRefs_of main_v76 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Final

end
-- ==== Proof.KernelWindows.lean ====
/-
  The windows' blocks as rows of the whole arrays.

  Each input window of the kernel call walks its array block by block along the batch axis: its block at grid point t
  holds the 256 batch rows t * 256, ..., t * 256 + 255 of the array the region finds, all lanes (and all context rows).
  So row p of block t is batch row t * 256 + p of that array.
-/
import proofs.«101089_j38465727103247_2_alg».proof.Proof.KernelAcc
import Idealize.ShloMosaic.Lib.Pipeline.Value

set_option maxRecDepth 16384

noncomputable section

open Idealize.ShloMosaic Idealize.ShloMosaic.ValueIdx Idealize.ShloMosaic.TcCoe Idealize.SL.Sem

namespace Cert.KernelIdeal.Windows

open Cert.KernelIdeal Cert.KernelIdeal.Gen Cert.KernelIdeal.Acc Cert.AttnLoss

variable (m : (ℓ : Loc nD τ sig) → Buf (Elt Ideal) ℓ)

/-- Row p of block t of window 0 is batch row t * 256 + p of its array. -/
theorem blk0_apply (c : Dev nD) (t : Fin 64) (p : Fin 256) (cc : Fin 256) :
    B0 m c (pt t) (ix2 p cc) = (V m c main_v6 : FVec Ideal S16384x256 .f32) (ix2 (row t p) cc) := by
  have hi : win0_0.index (pt t) 0 = t.val ∧ win0_0.index (pt t) 1 = 0 :=
    (by decide +kernel : ∀ t : Fin grid0.N, win0_0.index t 0 = t.val ∧ win0_0.index t 1 = 0) (pt t)
  show iblk m c 0 (pt t) (ix2 p cc) = _
  unfold iblk
  rw [View.read_apply]
  show V m c main_v6 _ = V m c main_v6 _
  congr 1
  funext a
  apply Fin.ext
  match a with
  | ⟨0, _⟩ => show win0_0.index (pt t) 0 * 256 + 1 * p.val = t.val * 256 + p.val; rw [hi.1]; omega
  | ⟨1, _⟩ => show win0_0.index (pt t) 1 * 256 + 1 * cc.val = cc.val; rw [hi.2]; omega

/-- Row p of block t of window 1 is batch row t * 256 + p of its array. -/
theorem blk1_apply (c : Dev nD) (t : Fin 64) (p : Fin 256) (cc : Fin 256) :
    B1 m c (pt t) (ix2 p cc) = (V m c main_v13 : FVec Ideal S16384x256 .f32) (ix2 (row t p) cc) := by
  have hi : win0_1.index (pt t) 0 = t.val ∧ win0_1.index (pt t) 1 = 0 :=
    (by decide +kernel : ∀ t : Fin grid0.N, win0_1.index t 0 = t.val ∧ win0_1.index t 1 = 0) (pt t)
  show iblk m c 1 (pt t) (ix2 p cc) = _
  unfold iblk
  rw [View.read_apply]
  show V m c main_v13 _ = V m c main_v13 _
  congr 1
  funext a
  apply Fin.ext
  match a with
  | ⟨0, _⟩ => show win0_1.index (pt t) 0 * 256 + 1 * p.val = t.val * 256 + p.val; rw [hi.1]; omega
  | ⟨1, _⟩ => show win0_1.index (pt t) 1 * 256 + 1 * cc.val = cc.val; rw [hi.2]; omega

/-- Row p of block t of window 2 is batch row t * 256 + p of its array. -/
theorem blk2_apply (c : Dev nD) (t : Fin 64) (p : Fin 256) (cc : Fin 256) :
    B2 m c (pt t) (ix2 p cc) = (V m c main_v20 : FVec Ideal S16384x256 .f32) (ix2 (row t p) cc) := by
  have hi : win0_2.index (pt t) 0 = t.val ∧ win0_2.index (pt t) 1 = 0 :=
    (by decide +kernel : ∀ t : Fin grid0.N, win0_2.index t 0 = t.val ∧ win0_2.index t 1 = 0) (pt t)
  show iblk m c 2 (pt t) (ix2 p cc) = _
  unfold iblk
  rw [View.read_apply]
  show V m c main_v20 _ = V m c main_v20 _
  congr 1
  funext a
  apply Fin.ext
  match a with
  | ⟨0, _⟩ => show win0_2.index (pt t) 0 * 256 + 1 * p.val = t.val * 256 + p.val; rw [hi.1]; omega
  | ⟨1, _⟩ => show win0_2.index (pt t) 1 * 256 + 1 * cc.val = cc.val; rw [hi.2]; omega

/-- Row p of block t of window 3 is batch row t * 256 + p of its array. -/
theorem blk3_apply (c : Dev nD) (t : Fin 64) (p : Fin 256) (cc : Fin 256) :
    B3 m c (pt t) (ix2 p cc) = (V m c main_v27 : FVec Ideal S16384x256 .f32) (ix2 (row t p) cc) := by
  have hi : win0_3.index (pt t) 0 = t.val ∧ win0_3.index (pt t) 1 = 0 :=
    (by decide +kernel : ∀ t : Fin grid0.N, win0_3.index t 0 = t.val ∧ win0_3.index t 1 = 0) (pt t)
  show iblk m c 3 (pt t) (ix2 p cc) = _
  unfold iblk
  rw [View.read_apply]
  show V m c main_v27 _ = V m c main_v27 _
  congr 1
  funext a
  apply Fin.ext
  match a with
  | ⟨0, _⟩ => show win0_3.index (pt t) 0 * 256 + 1 * p.val = t.val * 256 + p.val; rw [hi.1]; omega
  | ⟨1, _⟩ => show win0_3.index (pt t) 1 * 256 + 1 * cc.val = cc.val; rw [hi.2]; omega

/-- Row p of block t of window 4 is batch row t * 256 + p of its array. -/
theorem blk4_apply (c : Dev nD) (t : Fin 64) (p : Fin 256) (cc : Fin 256) :
    B4 m c (pt t) (ix2 p cc) = (V m c main_v34 : FVec Ideal S16384x256 .f32) (ix2 (row t p) cc) := by
  have hi : win0_4.index (pt t) 0 = t.val ∧ win0_4.index (pt t) 1 = 0 :=
    (by decide +kernel : ∀ t : Fin grid0.N, win0_4.index t 0 = t.val ∧ win0_4.index t 1 = 0) (pt t)
  show iblk m c 4 (pt t) (ix2 p cc) = _
  unfold iblk
  rw [View.read_apply]
  show V m c main_v34 _ = V m c main_v34 _
  congr 1
  funext a
  apply Fin.ext
  match a with
  | ⟨0, _⟩ => show win0_4.index (pt t) 0 * 256 + 1 * p.val = t.val * 256 + p.val; rw [hi.1]; omega
  | ⟨1, _⟩ => show win0_4.index (pt t) 1 * 256 + 1 * cc.val = cc.val; rw [hi.2]; omega

/-- Row p of block t of window 5 is batch row t * 256 + p of its array. -/
theorem blk5_apply (c : Dev nD) (t : Fin 64) (p : Fin 256) (cc : Fin 256) :
    B5 m c (pt t) (ix2 p cc) = (V m c main_v41 : FVec Ideal S16384x256 .f32) (ix2 (row t p) cc) := by
  have hi : win0_5.index (pt t) 0 = t.val ∧ win0_5.index (pt t) 1 = 0 :=
    (by decide +kernel : ∀ t : Fin grid0.N, win0_5.index t 0 = t.val ∧ win0_5.index t 1 = 0) (pt t)
  show iblk m c 5 (pt t) (ix2 p cc) = _
  unfold iblk
  rw [View.read_apply]
  show V m c main_v41 _ = V m c main_v41 _
  congr 1
  funext a
  apply Fin.ext
  match a with
  | ⟨0, _⟩ => show win0_5.index (pt t) 0 * 256 + 1 * p.val = t.val * 256 + p.val; rw [hi.1]; omega
  | ⟨1, _⟩ => show win0_5.index (pt t) 1 * 256 + 1 * cc.val = cc.val; rw [hi.2]; omega

/-- Context row j of row p of block t of window 6 is context row j of batch row t * 256 + p of its array. -/
theorem blk6_apply (c : Dev nD) (t : Fin 64) (p : Fin 256) (j : Fin 10) (cc : Fin 256) :
    B6 m c (pt t) (ix3 p j cc) = (V m c main_v60 : FVec Ideal S16384x10x256 .f32) (ix3 (row t p) j cc) := by
  have hi : win0_6.index (pt t) 0 = t.val ∧ win0_6.index (pt t) 1 = 0 ∧ win0_6.index (pt t) 2 = 0 :=
    (by decide +kernel : ∀ t : Fin grid0.N, win0_6.index t 0 = t.val ∧ win0_6.index t 1 = 0 ∧ win0_6.index t 2 = 0) (pt t)
  show iblk m c 6 (pt t) (ix3 p j cc) = _
  unfold iblk
  rw [View.read_apply]
  show V m c main_v60 _ = V m c main_v60 _
  congr 1
  funext a
  apply Fin.ext
  match a with
  | ⟨0, _⟩ => show win0_6.index (pt t) 0 * 256 + 1 * p.val = t.val * 256 + p.val; rw [hi.1]; omega
  | ⟨1, _⟩ => show win0_6.index (pt t) 1 * 10 + 1 * j.val = j.val; rw [hi.2.1]; omega
  | ⟨2, _⟩ => show win0_6.index (pt t) 2 * 256 + 1 * cc.val = cc.val; rw [hi.2.2]; omega

/-- Context row j of row p of block t of window 7 is context row j of batch row t * 256 + p of its array. -/
theorem blk7_apply (c : Dev nD) (t : Fin 64) (p : Fin 256) (j : Fin 10) (cc : Fin 256) :
    B7 m c (pt t) (ix3 p j cc) = (V m c main_v74 : FVec Ideal S16384x10x256 .f32) (ix3 (row t p) j cc) := by
  have hi : win0_7.index (pt t) 0 = t.val ∧ win0_7.index (pt t) 1 = 0 ∧ win0_7.index (pt t) 2 = 0 :=
    (by decide +kernel : ∀ t : Fin grid0.N, win0_7.index t 0 = t.val ∧ win0_7.index t 1 = 0 ∧ win0_7.index t 2 = 0) (pt t)
  show iblk m c 7 (pt t) (ix3 p j cc) = _
  unfold iblk
  rw [View.read_apply]
  show V m c main_v74 _ = V m c main_v74 _
  congr 1
  funext a
  apply Fin.ext
  match a with
  | ⟨0, _⟩ => show win0_7.index (pt t) 0 * 256 + 1 * p.val = t.val * 256 + p.val; rw [hi.1]; omega
  | ⟨1, _⟩ => show win0_7.index (pt t) 1 * 10 + 1 * j.val = j.val; rw [hi.2.1]; omega
  | ⟨2, _⟩ => show win0_7.index (pt t) 2 * 256 + 1 * cc.val = cc.val; rw [hi.2.2]; omega

end Cert.KernelIdeal.Windows

end
-- ==== Proof.LibHostRows.lean ====
/-
  Row-wise host operations read at one entry, over the extended reals, for any extents: the host's sum of an [a, b]
  array over its second coordinate at row p is the initial value plus the sum of the row's b entries; a vector of row
  values written as a one-column matrix by broadcast_in_dim along axis 0, and a one-column matrix spread over b columns by
  broadcast_in_dim along both axes, read the row's value; a rank-zero constant spread over any shape reads its one entry.
-/
import Idealize.ShloMosaic.Lib.Pipeline.Value
import Idealize.ShloMosaic.Lib.ValueIdx
import Idealize.ShloMosaic.PureOps.Ideal.Laws

open scoped BigOperators

noncomputable section

namespace Cert.LibHostRows

open Idealize.ShloMosaic Idealize.ShloMosaic.ValueIdx

/-- A row's sum on the host: the add-reduce of an [a, b] array over its columns reads, at row p, the initial value's one
    entry plus the sum of the row's b entries. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  refine (Ideal.hostReduceAdd_single h' h x (init (Shape.Idx.first hu)) (ix1 p)).trans ?_
  show init (Shape.Idx.first hu) + ∑ k : Fin b, x (h.lift (ix1 p) k) = _
  refine congrArg (init (Shape.Idx.first hu) + ·) (Finset.sum_congr rfl fun k _ => congrArg x ?_)
  funext d; apply Fin.ext
  match d with
  | ⟨0, _⟩ => rfl
  | ⟨1, _⟩ => rfl

variable {α : Type}

/-- A vector of a row values placed along axis 0 of [a, 1] reads, at (p, u), the value of row p. -/
theorem colOfVec_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A one-column matrix [a, 1] spread over b columns (axes kept in place) reads, at (p, c), its row p. -/
theorem spreadCol_apply {a b : ℕ} (w : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h w (ix2 p c) = w (ix2 p (0 : Fin 1)) :=
  broadcastInDim_apply ![0, 1] h w (ix2 p c) (ix2 p (0 : Fin 1)) fun ax => by
    match ax with
    | ⟨0, _⟩ =>
      show p.val = if a = 1 then 0 else p.val
      split
      · have := p.isLt; omega
      · rfl
    | ⟨1, _⟩ => rfl

/-- A rank-zero array spread over any shape reads its one entry everywhere. -/
theorem spreadScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibHostRows

end
-- ==== Proof.LibHostRowMax.lean ====
/-
  The host's maximum over the columns of a matrix, read at one row, over the extended reals: a reduce of an [a, b] array
  over its second coordinate with the maximum as its body gives, at row p, the fold of max from the initial value over
  the b entries of that row — for any extents and any float format. The index "row p with column k put back" that the
  library's one-axis law speaks of is, at literal rank two, the pair (p, k).
-/
import Idealize.ShloMosaic.Lib.ValueIdx
import Idealize.ShloMosaic.PureOps.Ideal.Laws
import Idealize.ShloMosaic.PureOps.Reduce

namespace Cert.LibHostRowMax

open Idealize.ShloMosaic Idealize.ShloMosaic.ValueIdx

/-- A row's maximum on the host: the reduce with a maximum body of an [a, b] array over its columns reads, at row p, the
    fold of max from the initial value's one entry over the row's b entries. -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) := by
  refine (Host.reduce_eq_fold_single (FloatOps.maximumf (F := Ideal) (φ := φ)) x init h' h hu (ix1 p)).trans ?_
  show (Finset.univ : Finset (Fin b)).fold max (init (Shape.Idx.first hu)) (x ∘ h.lift (ix1 p)) = _
  congr 1
  funext k
  show x (h.lift (ix1 p) k) = x (ix2 p k)
  congr 1
  funext d; apply Fin.ext
  match d with
  | ⟨0, _⟩ => rfl
  | ⟨1, _⟩ => rfl

end Cert.LibHostRowMax
-- ==== Proof.LibBcast3.lean ====
/-
  The rank-3 forms of broadcast_in_dim read at one entry, for any extents and any entries, and the host's sum over the
  last of three axes over the extended reals.

  A matrix `[a, b]` placed along axes 1 and 2 of `[1, a, b]`, and that one-slab array spread over `g` slabs, read the
  matrix entry `(p, q)` at every `(t, p, q)`. A vector `[c]` placed along axis 2 of `[1, 1, c]`, and that array spread
  over `[a, b, c]`, read the vector's entry `r` at every `(p, q, r)`. A matrix `[a, b]` placed along axes 0 and 1 of
  `[a, b, 1]`, and that array spread over `c` entries of its last axis, read the matrix entry `(p, q)` at every
  `(p, q, r)`. The host's add-reduce of an `[a, b, c]` array over its last axis reads, at `(p, q)`, the initial value
  plus the sum of the `c` entries `(p, q, ·)`.
-/
import Idealize.ShloMosaic.Lib.Pipeline.Value
import Idealize.ShloMosaic.Lib.ValueIdx
import Idealize.ShloMosaic.PureOps.Ideal.Laws

open scoped BigOperators

noncomputable section

namespace Cert.LibBcast3

open Idealize.ShloMosaic Idealize.ShloMosaic.ValueIdx

variable {α : Type}

/-- A matrix placed along axes 1 and 2 of `[1, a, b]` reads, at `(u, p, q)`, its entry `(p, q)`. -/
theorem slabOfMat_apply {a b : ℕ} (v : (⟨2, ![a, b]⟩ : Shape).Idx → α)
    (h : (⟨2, ![a, b]⟩ : Shape).BroadcastsInDim ⟨3, ![1, a, b]⟩ ![1, 2]) (u : Fin 1) (p : Fin a) (q : Fin b) :
    broadcastInDim ⟨3, ![1, a, b]⟩ ![1, 2] h v (ix3 u p q) = v (ix2 p q) :=
  broadcastInDim_apply ![1, 2] h v (ix3 u p q) (ix2 p q) fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl

/-- A one-slab array `[1, a, b]` spread over `g` slabs (axes kept in place) reads, at `(t, p, q)`, its entry `(0, p, q)`. -/
theorem spreadSlab_apply {g a b : ℕ} (w : (⟨3, ![1, a, b]⟩ : Shape).Idx → α)
    (h : (⟨3, ![1, a, b]⟩ : Shape).BroadcastsInDim ⟨3, ![g, a, b]⟩ ![0, 1, 2]) (t : Fin g) (p : Fin a) (q : Fin b) :
    broadcastInDim ⟨3, ![g, a, b]⟩ ![0, 1, 2] h w (ix3 t p q) = w (ix3 (0 : Fin 1) p q) :=
  broadcastInDim_apply ![0, 1, 2] h w (ix3 t p q) (ix3 (0 : Fin 1) p q) fun ax => by
    match ax with
    | ⟨0, _⟩ => rfl
    | ⟨1, _⟩ =>
      show p.val = if a = 1 then 0 else p.val
      split
      · have := p.isLt; omega
      · rfl
    | ⟨2, _⟩ =>
      show q.val = if b = 1 then 0 else q.val
      split
      · have := q.isLt; omega
      · rfl

/-- A vector placed along axis 2 of `[1, 1, c]` reads, at `(u, u', r)`, its entry `r`. -/
theorem fibreOfVec_apply {c : ℕ} (v : (⟨1, ![c]⟩ : Shape).Idx → α)
    (h : (⟨1, ![c]⟩ : Shape).BroadcastsInDim ⟨3, ![1, 1, c]⟩ ![2]) (u u' : Fin 1) (r : Fin c) :
    broadcastInDim ⟨3, ![1, 1, c]⟩ ![2] h v (ix3 u u' r) = v (ix1 r) :=
  broadcastInDim_apply ![2] h v (ix3 u u' r) (ix1 r) fun ax => by
    match ax with
    | ⟨0, _⟩ =>
      show r.val = if c = 1 then 0 else r.val
      split
      · have := r.isLt; omega
      · rfl

/-- A `[1, 1, c]` array spread over `[a, b, c]` (axes kept in place) reads, at `(p, q, r)`, its entry `(0, 0, r)`. -/
theorem spreadFibre_apply {a b c : ℕ} (w : (⟨3, ![1, 1, c]⟩ : Shape).Idx → α)
    (h : (⟨3, ![1, 1, c]⟩ : Shape).BroadcastsInDim ⟨3, ![a, b, c]⟩ ![0, 1, 2]) (p : Fin a) (q : Fin b) (r : Fin c) :
    broadcastInDim ⟨3, ![a, b, c]⟩ ![0, 1, 2] h w (ix3 p q r) = w (ix3 (0 : Fin 1) (0 : Fin 1) r) :=
  broadcastInDim_apply ![0, 1, 2] h w (ix3 p q r) (ix3 (0 : Fin 1) (0 : Fin 1) r) fun ax => by
    match ax with
    | ⟨0, _⟩ => rfl
    | ⟨1, _⟩ => rfl
    | ⟨2, _⟩ =>
      show r.val = if c = 1 then 0 else r.val
      split
      · have := r.isLt; omega
      · rfl

/-- A matrix placed along axes 0 and 1 of `[a, b, 1]` reads, at `(p, q, u)`, its entry `(p, q)`. -/
theorem keepLast_apply {a b : ℕ} (v : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h v (ix3 p q u) = v (ix2 p q) :=
  broadcastInDim_apply ![0, 1] h v (ix3 p q u) (ix2 p q) fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl

/-- An `[a, b, 1]` array spread over `c` entries of its last axis (axes kept in place) reads, at `(p, q, r)`, its
    entry `(p, q, 0)`. -/
theorem spreadLast_apply {a b c : ℕ} (w : (⟨3, ![a, b, 1]⟩ : Shape).Idx → α)
    (h : (⟨3, ![a, b, 1]⟩ : Shape).BroadcastsInDim ⟨3, ![a, b, c]⟩ ![0, 1, 2]) (p : Fin a) (q : Fin b) (r : Fin c) :
    broadcastInDim ⟨3, ![a, b, c]⟩ ![0, 1, 2] h w (ix3 p q r) = w (ix3 p q (0 : Fin 1)) :=
  broadcastInDim_apply ![0, 1, 2] h w (ix3 p q r) (ix3 p q (0 : Fin 1)) fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => rfl

/-- A sum over the last of three axes on the host: the add-reduce of an `[a, b, c]` array over axis 2 reads, at
    `(p, q)`, the initial value's one entry plus the sum of the `c` entries `(p, q, ·)`. -/
theorem hostSumLast3_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ k : Fin c, x (ix3 p q k) := by
  refine (Ideal.hostReduceAdd_single h' h x (init (Shape.Idx.first hu)) (ix2 p q)).trans ?_
  show init (Shape.Idx.first hu) + ∑ k : Fin c, x (h.lift (ix2 p q) k) = _
  refine congrArg (init (Shape.Idx.first hu) + ·) (Finset.sum_congr rfl fun k _ => congrArg x ?_)
  funext d; apply Fin.ext
  match d with
  | ⟨0, _⟩ => rfl
  | ⟨1, _⟩ => rfl
  | ⟨2, _⟩ => rfl

end Cert.LibBcast3

end
-- ==== Proof.RefRows.lean ====
/-
  The reference program's stages read one batch row at a time, over the extended reals.

  The reference applies the same row-wise computation to whole arrays of 16384 rows: each stage is pointwise, or spreads
  a row's value along a context or a lane axis, or reduces along such an axis, so at batch row b each stage is the
  specification's value computed from row b of the gathered embeddings er, et, eh, ehn, ern, etn, of the neighbour
  context differences and of the path context sums. Its three totals are then the sums over all rows of the three hinge
  terms, each started from zero.
-/
import proofs.«101089_j38465727103247_2_alg».proof.Proof.Gen.ReferenceIdeal.Run
import proofs.«101089_j38465727103247_2_alg».proof.Proof.Spec
import proofs.«101089_j38465727103247_2_alg».proof.Proof.LibHostRows
import proofs.«101089_j38465727103247_2_alg».proof.Proof.LibHostRowMax
import proofs.«101089_j38465727103247_2_alg».proof.Proof.LibBcast3
import proofs.«101089_j38465727103247_2_alg».proof.Proof.LibHostMid3
import Idealize.ShloMosaic.Lib.ValueIdx
import Idealize.ShloMosaic.Lib.Pipeline.Value
import Idealize.ShloMosaic.PureOps.Ideal.Laws

set_option maxRecDepth 16384

open scoped BigOperators

noncomputable section

open Idealize.ShloMosaic Idealize.ShloMosaic.ValueIdx Idealize.ShloMosaic.TcCoe Idealize.SL.Sem Idealize.ShloMosaic.StableHlo

namespace Cert.ReferenceIdeal.Rows

open Cert.ReferenceIdeal Cert.ReferenceIdeal.Gen Cert.ReferenceIdeal.Value Cert.AttnLoss

/-! ## Pointwise host operations and the host's reductions at an index -/

theorem hneg_apply {s : Shape} {φ : FTy} (a : FVec Ideal s φ) (i : s.Idx) : Host.negf a i = -(a i) := rfl
theorem hsqrt_apply {s : Shape} {φ : FTy} (a : FVec Ideal s φ) (i : s.Idx) : Host.sqrt a i = Ideal.sqrt (a i) := rfl
theorem hexp_apply {s : Shape} {φ : FTy} (a : FVec Ideal s φ) (i : s.Idx) : Host.exp a i = Ideal.exp (a i) := rfl
theorem hdiv_apply {s : Shape} {φ : FTy} (a b : FVec Ideal s φ) (i : s.Idx) : Host.divf a b i = Ideal.div (a i) (b i) := rfl

/-- A sum over the lanes of a context array. -/
theorem sumLanes3 (x : FVec Ideal S16384x10x256 .f32) (b : Fin 16384) (j : Fin 10) :
    Host.reduceAdd x (constant (F := Ideal) S_ .f32 0x00000000#32) reducesTo_S16384x10x256_S16384x10_d2 h_S_ (ix2 b j)
      = ∑ k : Fin 256, x (ix3 b j k) := by
  rw [LibBcast3.hostSumLast3_apply x _ _ (by decide) _ b j, constant_apply, Ideal.ofBits_zero_f32, zero_add]

/-- A sum over the context rows of a context array. -/
theorem sumCtx3 (x : FVec Ideal S16384x10x256 .f32) (b : Fin 16384) (c : Fin 256) :
    Host.reduceAdd x (constant (F := Ideal) S_ .f32 0x00000000#32) reducesTo_S16384x10x256_S16384x256_d1 h_S_ (ix2 b c)
      = ∑ k : Fin 10, x (ix3 b k c) := by
  rw [LibHostMid3.hostSumMid3_apply x _ _ (by decide) _ b c, constant_apply, Ideal.ofBits_zero_f32, zero_add]

/-- A sum over the lanes of an embedding array. -/
theorem sumLanes2 (x : FVec Ideal S16384x256 .f32) (b : Fin 16384) :
    Host.reduceAdd x (constant (F := Ideal) S_ .f32 0x00000000#32) reducesTo_S16384x256_S16384_d1 h_S_ (ix1 b)
      = ∑ k : Fin 256, x (ix2 b k) := by
  rw [LibHostRows.hostRowSum_apply x _ _ (by decide) _ b, constant_apply, Ideal.ofBits_zero_f32, zero_add]

/-- A sum over the context rows of a score array. -/
theorem sumCtx2 (x : FVec Ideal S16384x10 .f32) (b : Fin 16384) :
    Host.reduceAdd x (constant (F := Ideal) S_ .f32 0x00000000#32) reducesTo_S16384x10_S16384_d1 h_S_ (ix1 b)
      = ∑ k : Fin 10, x (ix2 b k) := by
  rw [LibHostRows.hostRowSum_apply x _ _ (by decide) _ b, constant_apply, Ideal.ofBits_zero_f32, zero_add]

/-- The largest score of a row. -/
theorem maxCtx2 (x : FVec Ideal S16384x10 .f32) (b : Fin 16384) :
    Host.reduce FloatOps.maximumf x (constant (F := Ideal) S_ .f32 0xFF800000#32) reducesTo_S16384x10_S16384_d1 h_S_ (ix1 b)
      = (Finset.univ : Finset (Fin 10)).fold max negInf (fun k => x (ix2 b k)) := by
  rw [LibHostRowMax.hostRowMax_apply x _ _ (by decide) _ b, constant_apply]

/-- A total over all batch rows, started from zero. -/
theorem total_apply (f : FVec Ideal S16384 .f32) (j : S_.Idx) :
    Host.reduceAdd f (constant (F := Ideal) S_ .f32 0x00000000#32) reducesTo_S16384_S_d0 h_S_ j
      = (0 : EReal) + ∑ b : Fin 16384, f (ix1 b) := by
  rw [LibHostMid3.hostSumAll_apply f _ _ _ j, constant_apply, Ideal.ofBits_zero_f32, LibHostMid3.sum_idx1]

/-! ## Recurring patterns, over any source array -/

/-- The negated norm over the lanes of a context array. -/
theorem negNorm3 (z : FVec Ideal S16384x10x256 .f32) (b : Fin 16384) (j : Fin 10) :
    Host.negf (Host.sqrt (Host.reduceAdd (mulf z z) (constant (F := Ideal) S_ .f32 0x00000000#32)
        reducesTo_S16384x10x256_S16384x10_d2 h_S_)) (ix2 b j)
      = negNorm (fun c => z (ix3 b j c)) := by
  rw [hneg_apply, hsqrt_apply, sumLanes3]
  simp only [mulf_apply, negNorm]

/-- The negated norm over the lanes of an embedding array. -/
theorem negNorm2 (z : FVec Ideal S16384x256 .f32) (b : Fin 16384) :
    Host.negf (Host.sqrt (Host.reduceAdd (mulf z z) (constant (F := Ideal) S_ .f32 0x00000000#32)
        reducesTo_S16384x256_S16384_d1 h_S_)) (ix1 b)
      = negNorm (fun c => z (ix2 b c)) := by
  rw [hneg_apply, hsqrt_apply, sumLanes2]
  simp only [mulf_apply, negNorm]

/-- The exponential of a score after the row's largest score (bounded below by minus infinity) is subtracted. -/
theorem soft_apply (s : FVec Ideal S16384x10 .f32) (b : Fin 16384) (j : Fin 10) :
    Host.exp (subf s (broadcastInDim S16384x10 ![0, 1] bcast_S16384x1_S16384x10_0_1
        (broadcastInDim S16384x1 ![0] bcast_S16384_S16384x1_0
          (maximumf (broadcastInDim S16384 ![] bcast_S_S16384 (constant (F := Ideal) S_ .f32 0xFF800000#32))
            (Host.reduce FloatOps.maximumf s (constant (F := Ideal) S_ .f32 0xFF800000#32) reducesTo_S16384x10_S16384_d1 h_S_)))))
        (ix2 b j)
      = soft (fun k => s (ix2 b k)) j := by
  rw [hexp_apply, subf_apply, LibHostRows.spreadCol_apply, LibHostRows.colOfVec_apply, maximumf_apply,
    LibHostRows.spreadScalar_apply, constant_apply, maxCtx2]
  rfl

/-- The context rows weighted by the softmax of a score array and summed over the context axis. -/
theorem mix_apply (e : FVec Ideal S16384x10 .f32) (x : FVec Ideal S16384x10x256 .f32) (b : Fin 16384) (c : Fin 256) :
    Host.reduceAdd (mulf (broadcastInDim S16384x10x256 ![0, 1, 2] bcast_S16384x10x1_S16384x10x256_0_1_2
        (broadcastInDim S16384x10x1 ![0, 1] bcast_S16384x10_S16384x10x1_0_1
          (Host.divf e (broadcastInDim S16384x10 ![0, 1] bcast_S16384x1_S16384x10_0_1
            (broadcastInDim S16384x1 ![0] bcast_S16384_S16384x1_0
              (Host.reduceAdd e (constant (F := Ideal) S_ .f32 0x00000000#32) reducesTo_S16384x10_S16384_d1 h_S_)))))) x)
        (constant (F := Ideal) S_ .f32 0x00000000#32) reducesTo_S16384x10x256_S16384x256_d1 h_S_ (ix2 b c)
      = ∑ j : Fin 10, Ideal.div (e (ix2 b j)) (∑ k : Fin 10, e (ix2 b k)) * x (ix3 b j c) := by
  rw [sumCtx3]
  refine Finset.sum_congr rfl fun j _ => ?_
  rw [mulf_apply, LibBcast3.spreadLast_apply, LibBcast3.keepLast_apply, hdiv_apply, LibHostRows.spreadCol_apply,
    LibHostRows.colOfVec_apply, sumCtx2]

/-- A hinge column over two score vectors. -/
theorem hinge_apply (P Q : FVec Ideal S16384 .f32) (b : Fin 16384) :
    maximumf (broadcastInDim S16384 ![] bcast_S_S16384 (constant (F := Ideal) S_ .f32 0x00000000#32))
        (subf (broadcastInDim S16384 ![] bcast_S_S16384 (constant (F := Ideal) S_ .f32 0x3F800000#32)) (subf P Q)) (ix1 b)
      = hinge (P (ix1 b)) (Q (ix1 b)) := by
  rw [maximumf_apply, subf_apply, subf_apply, LibHostRows.spreadScalar_apply, LibHostRows.spreadScalar_apply, constant_apply,
    constant_apply, Ideal.ofBits_zero_f32]
  rfl

/-! ## The gathered rows and the named stages at a row -/

/-- The gathered negative tail embeddings (the one gathered array the generated run leaves unnamed). -/
def etn (V0 : Valuation τ sig (Elt Ideal)) : FVec Ideal S16384x256 .f32 :=
  Host.gather gather_S14952x256_S16384x1_S16384x256_1_0_n_n_0_1_1256 (V0 (Proc.devRef .tc main_arg0)) (broadcastInDim S16384x1 ![0] bcast_S16384_S16384x1_0 (select (cmpi .slt (V0 (Proc.devRef .tc main_arg7)) (broadcastInDim S16384 ![] bcast_S_S16384 (constantI S_ 32 0#32))) (addi (V0 (Proc.devRef .tc main_arg7)) (broadcastInDim S16384 ![] bcast_S_S16384 (constantI S_ 32 14952#32))) (V0 (Proc.devRef .tc main_arg7))))

/-- Row b of the neighbour context differences and of the two embeddings the neighbour scores use. -/
abbrev wRow (V0 : Valuation τ sig (Elt Ideal)) (b : Fin 16384) : Fin 10 → Fin 256 → EReal :=
  fun j c => res_main_v61 (F := Ideal) V0 (ix3 b j c)
abbrev epRow (V0 : Valuation τ sig (Elt Ideal)) (b : Fin 16384) : Fin 10 → Fin 256 → EReal :=
  fun j c => res_main_v111 (F := Ideal) V0 (ix3 b j c)
abbrev ehRow (V0 : Valuation τ sig (Elt Ideal)) (b : Fin 16384) : Fin 256 → EReal := fun c => res_main_v6 (F := Ideal) V0 (ix2 b c)
abbrev erRow (V0 : Valuation τ sig (Elt Ideal)) (b : Fin 16384) : Fin 256 → EReal := fun c => res_main_v13 (F := Ideal) V0 (ix2 b c)
abbrev etRow (V0 : Valuation τ sig (Elt Ideal)) (b : Fin 16384) : Fin 256 → EReal := fun c => res_main_v20 (F := Ideal) V0 (ix2 b c)
abbrev ehnRow (V0 : Valuation τ sig (Elt Ideal)) (b : Fin 16384) : Fin 256 → EReal := fun c => res_main_v27 (F := Ideal) V0 (ix2 b c)
abbrev ernRow (V0 : Valuation τ sig (Elt Ideal)) (b : Fin 16384) : Fin 256 → EReal := fun c => res_main_v34 (F := Ideal) V0 (ix2 b c)
abbrev etnRow (V0 : Valuation τ sig (Elt Ideal)) (b : Fin 16384) : Fin 256 → EReal := fun c => etn V0 (ix2 b c)

variable (V0 : Valuation τ sig (Elt Ideal))

/-- The neighbour scores of batch row b. -/
theorem res72_apply (b : Fin 16384) (j : Fin 10) :
    res_main_v72 (F := Ideal) V0 (ix2 b j) = scoreN (erRow V0 b) (etRow V0 b) (wRow V0 b) j := by
  unfold res_main_v72
  refine (negNorm3 _ b j).trans ?_
  unfold scoreN
  congr 1
  funext c
  unfold res_main_v68
  simp only [subf_apply, addf_apply, hneg_apply]
  rw [LibHostMid3.spreadMid_apply, LibHostMid3.midOfMat_apply, LibHostMid3.spreadMid_apply, LibHostMid3.midOfMat_apply]

/-- Their exponentials after the largest is subtracted. -/
theorem res79_apply (b : Fin 16384) (j : Fin 10) :
    res_main_v79 (F := Ideal) V0 (ix2 b j) = soft (scoreN (erRow V0 b) (etRow V0 b) (wRow V0 b)) j := by
  unfold res_main_v79
  refine (soft_apply _ b j).trans ?_
  refine congrArg (fun s => soft s j) (funext fun k => ?_)
  exact res72_apply V0 b k

/-- The softmax mix of the neighbour context rows of batch row b. -/
theorem res87_apply (b : Fin 16384) (c : Fin 256) :
    res_main_v87 (F := Ideal) V0 (ix2 b c) = mix (scoreN (erRow V0 b) (etRow V0 b) (wRow V0 b)) (wRow V0 b) c := by
  unfold res_main_v87
  refine (mix_apply _ _ b c).trans ?_
  unfold mix weight
  simp only [res79_apply]

/-- The path scores of batch row b. -/
theorem res121_apply (b : Fin 16384) (j : Fin 10) :
    res_main_v121 (F := Ideal) V0 (ix2 b j) = scoreP (ehRow V0 b) (etRow V0 b) (epRow V0 b) j := by
  unfold res_main_v121
  refine (negNorm3 _ b j).trans ?_
  unfold scoreP
  congr 1
  funext c
  unfold res_main_v117
  simp only [subf_apply, addf_apply]
  rw [LibHostMid3.spreadMid_apply, LibHostMid3.midOfMat_apply, LibHostMid3.spreadMid_apply, LibHostMid3.midOfMat_apply]

theorem res128_apply (b : Fin 16384) (j : Fin 10) :
    res_main_v128 (F := Ideal) V0 (ix2 b j) = soft (scoreP (ehRow V0 b) (etRow V0 b) (epRow V0 b)) j := by
  unfold res_main_v128
  refine (soft_apply _ b j).trans ?_
  refine congrArg (fun s => soft s j) (funext fun k => ?_)
  exact res121_apply V0 b k

/-- The softmax mix of the path context rows of batch row b. -/
theorem res136_apply (b : Fin 16384) (c : Fin 256) :
    res_main_v136 (F := Ideal) V0 (ix2 b c) = mix (scoreP (ehRow V0 b) (etRow V0 b) (epRow V0 b)) (epRow V0 b) c := by
  unfold res_main_v136
  refine (mix_apply _ _ b c).trans ?_
  unfold mix weight
  simp only [res128_apply]

/-- The neighbour hinge total. -/
theorem totalN_apply (j : S_.Idx) :
    Host.reduceAdd (maximumf (broadcastInDim S16384 ![] bcast_S_S16384 (constant (F := Ideal) S_ .f32 0x00000000#32))
        (subf (broadcastInDim S16384 ![] bcast_S_S16384 (constant (F := Ideal) S_ .f32 0x3F800000#32))
          (subf (Host.negf (Host.sqrt (Host.reduceAdd (mulf (res_main_v88 (F := Ideal) V0) (res_main_v88 V0))
              (constant (F := Ideal) S_ .f32 0x00000000#32) reducesTo_S16384x256_S16384_d1 h_S_)))
            (Host.negf (Host.sqrt (Host.reduceAdd (mulf (res_main_v93 (F := Ideal) V0) (res_main_v93 V0))
              (constant (F := Ideal) S_ .f32 0x00000000#32) reducesTo_S16384x256_S16384_d1 h_S_))))))
        (constant (F := Ideal) S_ .f32 0x00000000#32) reducesTo_S16384_S_d0 h_S_ j
      = (0 : EReal) + ∑ b : Fin 16384, lossN (ehRow V0 b) (ehnRow V0 b) (erRow V0 b) (etRow V0 b) (wRow V0 b) := by
  rw [total_apply]
  refine congrArg (fun s : EReal => (0 : EReal) + s) (Finset.sum_congr rfl fun b _ => ?_)
  rw [hinge_apply, negNorm2, negNorm2]
  unfold lossN res_main_v88 res_main_v93
  simp only [subf_apply, res87_apply]

/-- The path hinge total. -/
theorem totalP_apply (j : S_.Idx) :
    Host.reduceAdd (maximumf (broadcastInDim S16384 ![] bcast_S_S16384 (constant (F := Ideal) S_ .f32 0x00000000#32))
        (subf (broadcastInDim S16384 ![] bcast_S_S16384 (constant (F := Ideal) S_ .f32 0x3F800000#32))
          (subf (Host.negf (Host.sqrt (Host.reduceAdd (mulf (res_main_v137 (F := Ideal) V0) (res_main_v137 V0))
              (constant (F := Ideal) S_ .f32 0x00000000#32) reducesTo_S16384x256_S16384_d1 h_S_)))
            (Host.negf (Host.sqrt (Host.reduceAdd (mulf (res_main_v142 (F := Ideal) V0) (res_main_v142 V0))
              (constant (F := Ideal) S_ .f32 0x00000000#32) reducesTo_S16384x256_S16384_d1 h_S_))))))
        (constant (F := Ideal) S_ .f32 0x00000000#32) reducesTo_S16384_S_d0 h_S_ j
      = (0 : EReal) + ∑ b : Fin 16384, lossP (ehRow V0 b) (erRow V0 b) (ernRow V0 b) (etRow V0 b) (epRow V0 b) := by
  rw [total_apply]
  refine congrArg (fun s : EReal => (0 : EReal) + s) (Finset.sum_congr rfl fun b _ => ?_)
  rw [hinge_apply, negNorm2, negNorm2]
  unfold lossP res_main_v137 res_main_v142
  simp only [subf_apply, res136_apply]

/-- The triple hinge total. -/
theorem totalT_apply (j : S_.Idx) :
    Host.reduceAdd (maximumf (broadcastInDim S16384 ![] bcast_S_S16384 (constant (F := Ideal) S_ .f32 0x00000000#32))
        (subf (broadcastInDim S16384 ![] bcast_S_S16384 (constant (F := Ideal) S_ .f32 0x3F800000#32))
          (subf (Host.negf (Host.sqrt (Host.reduceAdd (mulf (res_main_v148 (F := Ideal) V0) (res_main_v148 V0))
              (constant (F := Ideal) S_ .f32 0x00000000#32) reducesTo_S16384x256_S16384_d1 h_S_)))
            (Host.negf (Host.sqrt (Host.reduceAdd (mulf (res_main_v154 (F := Ideal) V0) (res_main_v154 V0))
              (constant (F := Ideal) S_ .f32 0x00000000#32) reducesTo_S16384x256_S16384_d1 h_S_))))))
        (constant (F := Ideal) S_ .f32 0x00000000#32) reducesTo_S16384_S_d0 h_S_ j
      = (0 : EReal) + ∑ b : Fin 16384,
          lossT (ehRow V0 b) (erRow V0 b) (etRow V0 b) (ehnRow V0 b) (ernRow V0 b) (etnRow V0 b) := by
  rw [total_apply]
  refine congrArg (fun s : EReal => (0 : EReal) + s) (Finset.sum_congr rfl fun b _ => ?_)
  rw [hinge_apply, negNorm2, negNorm2]
  unfold lossT res_main_v148 res_main_v154
  simp only [subf_apply, addf_apply]
  rfl

end Cert.ReferenceIdeal.Rows

end
-- ==== Proof.HostBridge.lean ====
/-
  The arrays the kernel call is given are the reference's gathered arrays.

  Before the kernel call the kernel program gathers, on the host, the same embedding rows from the same tables at the
  same index arrays as the reference does, operation for operation; so from memories that agree on the arguments the
  arrays the region finds are the reference's stages of the same names. The one difference is the neighbour context
  array: the kernel program forms nt - nr where the reference forms -(nr - nt). Every gathered entry is an entry of a
  table, and the tables hold real numbers under the precondition, so the two agree entry by entry.
-/
import proofs.«101089_j38465727103247_2_alg».proof.Proof.KernelWindows
import proofs.«101089_j38465727103247_2_alg».proof.Proof.RefRows
import Idealize.ShloMosaic.Lib.StableHlo.Run

set_option maxRecDepth 16384

noncomputable section

open Idealize.ShloMosaic Idealize.ShloMosaic.ValueIdx Idealize.ShloMosaic.TcCoe Idealize.SL.Sem Idealize.ShloMosaic.StableHlo

namespace Cert.Bridge

open Cert.AttnLoss

variable (m : (ℓ : Loc Cert.KernelIdeal.nD Cert.KernelIdeal.τ Cert.KernelIdeal.sig) → Buf (Elt Ideal) ℓ) (c : Dev Cert.KernelIdeal.nD)
  (V0' : Valuation Cert.ReferenceIdeal.τ Cert.ReferenceIdeal.sig (Elt Ideal))

/-- The reference's argument contents are the kernel program's. -/
structure Agrees : Prop where
  a0 : V0' (Proc.devRef .tc Cert.ReferenceIdeal.main_arg0) = m (c, Proc.devRef .tc Cert.KernelIdeal.main_arg0)
  a1 : V0' (Proc.devRef .tc Cert.ReferenceIdeal.main_arg1) = m (c, Proc.devRef .tc Cert.KernelIdeal.main_arg1)
  a2 : V0' (Proc.devRef .tc Cert.ReferenceIdeal.main_arg2) = m (c, Proc.devRef .tc Cert.KernelIdeal.main_arg2)
  a3 : V0' (Proc.devRef .tc Cert.ReferenceIdeal.main_arg3) = m (c, Proc.devRef .tc Cert.KernelIdeal.main_arg3)
  a4 : V0' (Proc.devRef .tc Cert.ReferenceIdeal.main_arg4) = m (c, Proc.devRef .tc Cert.KernelIdeal.main_arg4)
  a5 : V0' (Proc.devRef .tc Cert.ReferenceIdeal.main_arg5) = m (c, Proc.devRef .tc Cert.KernelIdeal.main_arg5)
  a6 : V0' (Proc.devRef .tc Cert.ReferenceIdeal.main_arg6) = m (c, Proc.devRef .tc Cert.KernelIdeal.main_arg6)
  a7 : V0' (Proc.devRef .tc Cert.ReferenceIdeal.main_arg7) = m (c, Proc.devRef .tc Cert.KernelIdeal.main_arg7)
  a8 : V0' (Proc.devRef .tc Cert.ReferenceIdeal.main_arg8) = m (c, Proc.devRef .tc Cert.KernelIdeal.main_arg8)
  a9 : V0' (Proc.devRef .tc Cert.ReferenceIdeal.main_arg9) = m (c, Proc.devRef .tc Cert.KernelIdeal.main_arg9)

/-- The head embeddings. -/
theorem eh_eq (hag : Agrees m c V0') : Cert.KernelIdeal.Gen.V m c Cert.KernelIdeal.main_v6 = Cert.ReferenceIdeal.Value.res_main_v6 V0' := by
  conv_lhs =>
    dsimp only [Cert.KernelIdeal.Gen.V, Cert.KernelIdeal.Gen.V0]
    simp only [Cert.KernelIdeal.Gen.hostOps0, List.flatten_cons, List.flatten_nil, List.append_nil, List.cons_append, List.nil_append]
  after_results_simp
  unfold Cert.ReferenceIdeal.Value.res_main_v6
  rw [hag.a0, hag.a2]
  rfl

/-- The relation embeddings. -/
theorem er_eq (hag : Agrees m c V0') : Cert.KernelIdeal.Gen.V m c Cert.KernelIdeal.main_v13 = Cert.ReferenceIdeal.Value.res_main_v13 V0' := by
  conv_lhs =>
    dsimp only [Cert.KernelIdeal.Gen.V, Cert.KernelIdeal.Gen.V0]
    simp only [Cert.KernelIdeal.Gen.hostOps0, List.flatten_cons, List.flatten_nil, List.append_nil, List.cons_append, List.nil_append]
  after_results_simp
  unfold Cert.ReferenceIdeal.Value.res_main_v13
  rw [hag.a1, hag.a3]
  rfl

/-- The tail embeddings. -/
theorem et_eq (hag : Agrees m c V0') : Cert.KernelIdeal.Gen.V m c Cert.KernelIdeal.main_v20 = Cert.ReferenceIdeal.Value.res_main_v20 V0' := by
  conv_lhs =>
    dsimp only [Cert.KernelIdeal.Gen.V, Cert.KernelIdeal.Gen.V0]
    simp only [Cert.KernelIdeal.Gen.hostOps0, List.flatten_cons, List.flatten_nil, List.append_nil, List.cons_append, List.nil_append]
  after_results_simp
  unfold Cert.ReferenceIdeal.Value.res_main_v20
  rw [hag.a0, hag.a4]
  rfl

/-- The negative head embeddings. -/
theorem ehn_eq (hag : Agrees m c V0') : Cert.KernelIdeal.Gen.V m c Cert.KernelIdeal.main_v27 = Cert.ReferenceIdeal.Value.res_main_v27 V0' := by
  conv_lhs =>
    dsimp only [Cert.KernelIdeal.Gen.V, Cert.KernelIdeal.Gen.V0]
    simp only [Cert.KernelIdeal.Gen.hostOps0, List.flatten_cons, List.flatten_nil, List.append_nil, List.cons_append, List.nil_append]
  after_results_simp
  unfold Cert.ReferenceIdeal.Value.res_main_v27
  rw [hag.a0, hag.a5]
  rfl

/-- The negative relation embeddings (gathered from the entity table, as both programs do). -/
theorem ern_eq (hag : Agrees m c V0') : Cert.KernelIdeal.Gen.V m c Cert.KernelIdeal.main_v34 = Cert.ReferenceIdeal.Value.res_main_v34 V0' := by
  conv_lhs =>
    dsimp only [Cert.KernelIdeal.Gen.V, Cert.KernelIdeal.Gen.V0]
    simp only [Cert.KernelIdeal.Gen.hostOps0, List.flatten_cons, List.flatten_nil, List.append_nil, List.cons_append, List.nil_append]
  after_results_simp
  unfold Cert.ReferenceIdeal.Value.res_main_v34
  rw [hag.a0, hag.a6]
  rfl

/-- The negative tail embeddings. -/
theorem etn_eq (hag : Agrees m c V0') : Cert.KernelIdeal.Gen.V m c Cert.KernelIdeal.main_v41 = Cert.ReferenceIdeal.Rows.etn V0' := by
  conv_lhs =>
    dsimp only [Cert.KernelIdeal.Gen.V, Cert.KernelIdeal.Gen.V0]
    simp only [Cert.KernelIdeal.Gen.hostOps0, List.flatten_cons, List.flatten_nil, List.append_nil, List.cons_append, List.nil_append]
  after_results_simp
  unfold Cert.ReferenceIdeal.Rows.etn
  rw [hag.a0, hag.a7]
  rfl

/-- The path context sums. -/
theorem ep_eq (hag : Agrees m c V0') : Cert.KernelIdeal.Gen.V m c Cert.KernelIdeal.main_v74 = Cert.ReferenceIdeal.Value.res_main_v111 V0' := by
  conv_lhs =>
    dsimp only [Cert.KernelIdeal.Gen.V, Cert.KernelIdeal.Gen.V0]
    simp only [Cert.KernelIdeal.Gen.hostOps0, List.flatten_cons, List.flatten_nil, List.append_nil, List.cons_append, List.nil_append]
  after_results_simp
  unfold Cert.ReferenceIdeal.Value.res_main_v111 Cert.ReferenceIdeal.Value.res_main_v100
  rw [hag.a1, hag.a9]
  rfl

set_option maxHeartbeats 4000000 in
/-- The neighbour context differences, entry by entry: nt - nr is -(nr - nt) on real numbers. -/
theorem w_eq (hag : Agrees m c V0')
    (hE : ∀ i : Cert.KernelIdeal.S14952x256.Idx, ∃ r : ℝ, (m (c, Proc.devRef .tc Cert.KernelIdeal.main_arg0) : Cert.KernelIdeal.S14952x256.Idx → EReal) i = (r : EReal))
    (hR : ∀ i : Cert.KernelIdeal.S1346x256.Idx, ∃ r : ℝ, (m (c, Proc.devRef .tc Cert.KernelIdeal.main_arg1) : Cert.KernelIdeal.S1346x256.Idx → EReal) i = (r : EReal)) (i : Cert.KernelIdeal.S16384x10x256.Idx) :
    (Cert.KernelIdeal.Gen.V m c Cert.KernelIdeal.main_v60 : FVec Ideal Cert.KernelIdeal.S16384x10x256 .f32) i = Cert.ReferenceIdeal.Value.res_main_v61 V0' i := by
  conv_lhs =>
    dsimp only [Cert.KernelIdeal.Gen.V, Cert.KernelIdeal.Gen.V0]
    simp only [Cert.KernelIdeal.Gen.hostOps0, List.flatten_cons, List.flatten_nil, List.append_nil, List.cons_append, List.nil_append]
  after_results_simp
  unfold Cert.ReferenceIdeal.Value.res_main_v61 Cert.ReferenceIdeal.Value.res_main_v43 Cert.ReferenceIdeal.Value.res_main_v52
  rw [hag.a0, hag.a1, hag.a8]
  rw [subf_apply, Cert.ReferenceIdeal.Rows.hneg_apply, subf_apply]
  exact sub_eq_neg_sub_of_real (hE _) (hR _)

end Cert.Bridge

end
-- ==== Proof.Equal.lean ====
/-
  The kernel program's result is the reference's.

  Row p of block t of every window is batch row t * 256 + p of the reference's array of the same name, so the loss the
  kernel adds at that row is the sum of the reference's three hinge terms of that batch row. The kernel program's result
  is zero plus, over the positions in a block, zero plus the sums over the blocks of those losses; the reference's is the
  sum of three totals over all batch rows, each from zero. These are one extended real: regrouping a finite sum, splitting
  a sum of three terms and dropping zero summands hold for every extended real.
-/
import proofs.«101089_j38465727103247_2_alg».proof.Proof.HostBridge
import proofs.«101089_j38465727103247_2_alg».proof.Proof.KernelRun

set_option maxRecDepth 16384

open scoped BigOperators

noncomputable section

open Idealize.ShloMosaic Idealize.ShloMosaic.ValueIdx Idealize.ShloMosaic.TcCoe Idealize.SL.Sem Idealize.ShloMosaic.StableHlo

namespace Cert.Bridge

open Cert.AttnLoss

variable (m : (ℓ : Loc Cert.KernelIdeal.nD Cert.KernelIdeal.τ Cert.KernelIdeal.sig) → Buf (Elt Ideal) ℓ) (c : Dev Cert.KernelIdeal.nD)
  (V0' : Valuation Cert.ReferenceIdeal.τ Cert.ReferenceIdeal.sig (Elt Ideal))

/-- The reference's three hinge terms of batch row b. -/
def refN (b : Fin 16384) : EReal :=
  lossN (Cert.ReferenceIdeal.Rows.ehRow V0' b) (Cert.ReferenceIdeal.Rows.ehnRow V0' b) (Cert.ReferenceIdeal.Rows.erRow V0' b) (Cert.ReferenceIdeal.Rows.etRow V0' b) (Cert.ReferenceIdeal.Rows.wRow V0' b)
def refP (b : Fin 16384) : EReal :=
  lossP (Cert.ReferenceIdeal.Rows.ehRow V0' b) (Cert.ReferenceIdeal.Rows.erRow V0' b) (Cert.ReferenceIdeal.Rows.ernRow V0' b) (Cert.ReferenceIdeal.Rows.etRow V0' b) (Cert.ReferenceIdeal.Rows.epRow V0' b)
def refT (b : Fin 16384) : EReal :=
  lossT (Cert.ReferenceIdeal.Rows.ehRow V0' b) (Cert.ReferenceIdeal.Rows.erRow V0' b) (Cert.ReferenceIdeal.Rows.etRow V0' b) (Cert.ReferenceIdeal.Rows.ehnRow V0' b) (Cert.ReferenceIdeal.Rows.ernRow V0' b) (Cert.ReferenceIdeal.Rows.etnRow V0' b)

/-- The loss the kernel adds at row p of block t is the reference's three terms of batch row t * 256 + p. -/
theorem rowLoss_eq (hag : Agrees m c V0')
    (hE : ∀ i : Cert.KernelIdeal.S14952x256.Idx, ∃ r : ℝ, (m (c, Proc.devRef .tc Cert.KernelIdeal.main_arg0) : Cert.KernelIdeal.S14952x256.Idx → EReal) i = (r : EReal))
    (hR : ∀ i : Cert.KernelIdeal.S1346x256.Idx, ∃ r : ℝ, (m (c, Proc.devRef .tc Cert.KernelIdeal.main_arg1) : Cert.KernelIdeal.S1346x256.Idx → EReal) i = (r : EReal)) (t : Fin 64) (p : Fin 256) :
    Cert.KernelIdeal.Acc.rowLoss m c (Cert.KernelIdeal.Acc.pt t) p = (refN V0' (row t p) + refP V0' (row t p)) + refT V0' (row t p) := by
  have e0 : (fun cc => Cert.KernelIdeal.Acc.B0 m c (Cert.KernelIdeal.Acc.pt t) (ix2 p cc)) = Cert.ReferenceIdeal.Rows.ehRow V0' (row t p) :=
    funext fun cc => (Cert.KernelIdeal.Windows.blk0_apply m c t p cc).trans (congrFun (eh_eq m c V0' hag) _)
  have e1 : (fun cc => Cert.KernelIdeal.Acc.B1 m c (Cert.KernelIdeal.Acc.pt t) (ix2 p cc)) = Cert.ReferenceIdeal.Rows.erRow V0' (row t p) :=
    funext fun cc => (Cert.KernelIdeal.Windows.blk1_apply m c t p cc).trans (congrFun (er_eq m c V0' hag) _)
  have e2 : (fun cc => Cert.KernelIdeal.Acc.B2 m c (Cert.KernelIdeal.Acc.pt t) (ix2 p cc)) = Cert.ReferenceIdeal.Rows.etRow V0' (row t p) :=
    funext fun cc => (Cert.KernelIdeal.Windows.blk2_apply m c t p cc).trans (congrFun (et_eq m c V0' hag) _)
  have e3 : (fun cc => Cert.KernelIdeal.Acc.B3 m c (Cert.KernelIdeal.Acc.pt t) (ix2 p cc)) = Cert.ReferenceIdeal.Rows.ehnRow V0' (row t p) :=
    funext fun cc => (Cert.KernelIdeal.Windows.blk3_apply m c t p cc).trans (congrFun (ehn_eq m c V0' hag) _)
  have e4 : (fun cc => Cert.KernelIdeal.Acc.B4 m c (Cert.KernelIdeal.Acc.pt t) (ix2 p cc)) = Cert.ReferenceIdeal.Rows.ernRow V0' (row t p) :=
    funext fun cc => (Cert.KernelIdeal.Windows.blk4_apply m c t p cc).trans (congrFun (ern_eq m c V0' hag) _)
  have e5 : (fun cc => Cert.KernelIdeal.Acc.B5 m c (Cert.KernelIdeal.Acc.pt t) (ix2 p cc)) = Cert.ReferenceIdeal.Rows.etnRow V0' (row t p) :=
    funext fun cc => (Cert.KernelIdeal.Windows.blk5_apply m c t p cc).trans (congrFun (etn_eq m c V0' hag) _)
  have e6 : (fun j cc => Cert.KernelIdeal.Acc.B6 m c (Cert.KernelIdeal.Acc.pt t) (ix3 p j cc)) = Cert.ReferenceIdeal.Rows.wRow V0' (row t p) :=
    funext fun j => funext fun cc => (Cert.KernelIdeal.Windows.blk6_apply m c t p j cc).trans (w_eq m c V0' hag hE hR _)
  have e7 : (fun j cc => Cert.KernelIdeal.Acc.B7 m c (Cert.KernelIdeal.Acc.pt t) (ix3 p j cc)) = Cert.ReferenceIdeal.Rows.epRow V0' (row t p) :=
    funext fun j => funext fun cc => (Cert.KernelIdeal.Windows.blk7_apply m c t p j cc).trans (congrFun (ep_eq m c V0' hag) _)
  unfold Cert.KernelIdeal.Acc.rowLoss refN refP refT
  rw [e0, e1, e2, e3, e4, e5, e6, e7]

/-- The reference's three totals add up to the kernel program's block-wise accumulated total. -/
theorem result_eq (hag : Agrees m c V0')
    (hE : ∀ i : Cert.KernelIdeal.S14952x256.Idx, ∃ r : ℝ, (m (c, Proc.devRef .tc Cert.KernelIdeal.main_arg0) : Cert.KernelIdeal.S14952x256.Idx → EReal) i = (r : EReal))
    (hR : ∀ i : Cert.KernelIdeal.S1346x256.Idx, ∃ r : ℝ, (m (c, Proc.devRef .tc Cert.KernelIdeal.main_arg1) : Cert.KernelIdeal.S1346x256.Idx → EReal) i = (r : EReal)) :
    (((0 : EReal) + ∑ b, refN V0' b) + ((0 : EReal) + ∑ b, refP V0' b)) + ((0 : EReal) + ∑ b, refT V0' b)
      = (0 : EReal) + ∑ p : Fin 256, ((0 : EReal) + ∑ t : Fin 64, Cert.KernelIdeal.Acc.rowLoss m c (Cert.KernelIdeal.Acc.pt t) p) := by
  rw [← total_eq (refN V0') (refP V0') (refT V0')]
  refine congrArg (fun s : EReal => (0 : EReal) + s) (Finset.sum_congr rfl fun p _ => ?_)
  refine congrArg (fun s : EReal => (0 : EReal) + s) (Finset.sum_congr rfl fun t _ => ?_)
  exact (rowLoss_eq m c V0' hag hE hR t p).symm

section Result

open Cert.ReferenceIdeal Cert.ReferenceIdeal.Gen Cert.ReferenceIdeal.Value

/-- The reference's result, as its run states it, is the sum of the three hinge totals over all batch rows, each from
    zero. -/
theorem refResult_apply (j : Cert.ReferenceIdeal.S_.Idx) :
    (addf (addf (Host.reduceAdd (maximumf (broadcastInDim S16384 ![] bcast_S_S16384 (constant (F := Ideal) S_ .f32 0x00000000#32)) (subf (broadcastInDim S16384 ![] bcast_S_S16384 (constant (F := Ideal) S_ .f32 0x3F800000#32)) (subf (Host.negf (Host.sqrt (Host.reduceAdd (mulf (res_main_v88 V0') (res_main_v88 V0')) (constant (F := Ideal) S_ .f32 0x00000000#32) reducesTo_S16384x256_S16384_d1 h_S_))) (Host.negf (Host.sqrt (Host.reduceAdd (mulf (res_main_v93 V0') (res_main_v93 V0')) (constant (F := Ideal) S_ .f32 0x00000000#32) reducesTo_S16384x256_S16384_d1 h_S_)))))) (constant (F := Ideal) S_ .f32 0x00000000#32) reducesTo_S16384_S_d0 h_S_) (Host.reduceAdd (maximumf (broadcastInDim S16384 ![] bcast_S_S16384 (constant (F := Ideal) S_ .f32 0x00000000#32)) (subf (broadcastInDim S16384 ![] bcast_S_S16384 (constant (F := Ideal) S_ .f32 0x3F800000#32)) (subf (Host.negf (Host.sqrt (Host.reduceAdd (mulf (res_main_v137 V0') (res_main_v137 V0')) (constant (F := Ideal) S_ .f32 0x00000000#32) reducesTo_S16384x256_S16384_d1 h_S_))) (Host.negf (Host.sqrt (Host.reduceAdd (mulf (res_main_v142 V0') (res_main_v142 V0')) (constant (F := Ideal) S_ .f32 0x00000000#32) reducesTo_S16384x256_S16384_d1 h_S_)))))) (constant (F := Ideal) S_ .f32 0x00000000#32) reducesTo_S16384_S_d0 h_S_)) (Host.reduceAdd (maximumf (broadcastInDim S16384 ![] bcast_S_S16384 (constant (F := Ideal) S_ .f32 0x00000000#32)) (subf (broadcastInDim S16384 ![] bcast_S_S16384 (constant (F := Ideal) S_ .f32 0x3F800000#32)) (subf (Host.negf (Host.sqrt (Host.reduceAdd (mulf (res_main_v148 V0') (res_main_v148 V0')) (constant (F := Ideal) S_ .f32 0x00000000#32) reducesTo_S16384x256_S16384_d1 h_S_))) (Host.negf (Host.sqrt (Host.reduceAdd (mulf (res_main_v154 V0') (res_main_v154 V0')) (constant (F := Ideal) S_ .f32 0x00000000#32) reducesTo_S16384x256_S16384_d1 h_S_)))))) (constant (F := Ideal) S_ .f32 0x00000000#32) reducesTo_S16384_S_d0 h_S_) : FVec Ideal Cert.ReferenceIdeal.S_ .f32) j
      = (((0 : EReal) + ∑ b, refN V0' b) + ((0 : EReal) + ∑ b, refP V0' b)) + ((0 : EReal) + ∑ b, refT V0' b) :=
  congrArg₂ (fun a b : EReal => a + b)
    (congrArg₂ (fun a b : EReal => a + b) (Cert.ReferenceIdeal.Rows.totalN_apply V0' j) (Cert.ReferenceIdeal.Rows.totalP_apply V0' j))
    (Cert.ReferenceIdeal.Rows.totalT_apply V0' j)

/-- From agreeing arguments and real tables, the reference's result is the kernel program's. -/
theorem ref_eq_kernel (hag : Agrees m c V0')
    (hE : ∀ i : Cert.KernelIdeal.S14952x256.Idx, ∃ r : ℝ, (m (c, Proc.devRef .tc Cert.KernelIdeal.main_arg0) : Cert.KernelIdeal.S14952x256.Idx → EReal) i = (r : EReal))
    (hR : ∀ i : Cert.KernelIdeal.S1346x256.Idx, ∃ r : ℝ, (m (c, Proc.devRef .tc Cert.KernelIdeal.main_arg1) : Cert.KernelIdeal.S1346x256.Idx → EReal) i = (r : EReal)) :
    (addf (addf (Host.reduceAdd (maximumf (broadcastInDim S16384 ![] bcast_S_S16384 (constant (F := Ideal) S_ .f32 0x00000000#32)) (subf (broadcastInDim S16384 ![] bcast_S_S16384 (constant (F := Ideal) S_ .f32 0x3F800000#32)) (subf (Host.negf (Host.sqrt (Host.reduceAdd (mulf (res_main_v88 V0') (res_main_v88 V0')) (constant (F := Ideal) S_ .f32 0x00000000#32) reducesTo_S16384x256_S16384_d1 h_S_))) (Host.negf (Host.sqrt (Host.reduceAdd (mulf (res_main_v93 V0') (res_main_v93 V0')) (constant (F := Ideal) S_ .f32 0x00000000#32) reducesTo_S16384x256_S16384_d1 h_S_)))))) (constant (F := Ideal) S_ .f32 0x00000000#32) reducesTo_S16384_S_d0 h_S_) (Host.reduceAdd (maximumf (broadcastInDim S16384 ![] bcast_S_S16384 (constant (F := Ideal) S_ .f32 0x00000000#32)) (subf (broadcastInDim S16384 ![] bcast_S_S16384 (constant (F := Ideal) S_ .f32 0x3F800000#32)) (subf (Host.negf (Host.sqrt (Host.reduceAdd (mulf (res_main_v137 V0') (res_main_v137 V0')) (constant (F := Ideal) S_ .f32 0x00000000#32) reducesTo_S16384x256_S16384_d1 h_S_))) (Host.negf (Host.sqrt (Host.reduceAdd (mulf (res_main_v142 V0') (res_main_v142 V0')) (constant (F := Ideal) S_ .f32 0x00000000#32) reducesTo_S16384x256_S16384_d1 h_S_)))))) (constant (F := Ideal) S_ .f32 0x00000000#32) reducesTo_S16384_S_d0 h_S_)) (Host.reduceAdd (maximumf (broadcastInDim S16384 ![] bcast_S_S16384 (constant (F := Ideal) S_ .f32 0x00000000#32)) (subf (broadcastInDim S16384 ![] bcast_S_S16384 (constant (F := Ideal) S_ .f32 0x3F800000#32)) (subf (Host.negf (Host.sqrt (Host.reduceAdd (mulf (res_main_v148 V0') (res_main_v148 V0')) (constant (F := Ideal) S_ .f32 0x00000000#32) reducesTo_S16384x256_S16384_d1 h_S_))) (Host.negf (Host.sqrt (Host.reduceAdd (mulf (res_main_v154 V0') (res_main_v154 V0')) (constant (F := Ideal) S_ .f32 0x00000000#32) reducesTo_S16384x256_S16384_d1 h_S_)))))) (constant (F := Ideal) S_ .f32 0x00000000#32) reducesTo_S16384_S_d0 h_S_) : FVec Ideal Cert.ReferenceIdeal.S_ .f32) = Cert.KernelIdeal.Final.kernelResult m c := by
  funext j
  rw [refResult_apply V0' j, Cert.KernelIdeal.Final.kernelResult_apply m c j]
  exact result_eq m c V0' hag hE hR

end Result

end Cert.Bridge

end
-- ==== Proof.LibRealOfTest.lean ====
/-
  General lemmas: a passed test "every |entry| < +inf" makes every entry of an array a real number.

  A finiteness precondition is printed, per float argument, as: take absolute values, compare each with the
  scalar +inf (the word 0x7F800000) spread over the argument's shape, and reduce the one-bit results by "and"
  into a single bit. Over the extended reals |v| = max v (−v) is +inf exactly at the two infinities, so the
  comparison holds at an entry exactly when the entry is a real number; and a reduction by "and" into a single
  result that is 1 had a 1 at every index. Any shape, any reduced axes.
-/
import Idealize.ShloMosaic.Lib.ReduceAll
import Idealize.ShloMosaic.Lib.ValueIdx
import Idealize.ShloMosaic.PureOps.Ideal

noncomputable section

namespace Cert.LibRealOfTest

open Idealize.ShloMosaic Idealize.ShloMosaic.ValueIdx

/-- The scalar shape has one index. -/
instance : Subsingleton (⟨0, ![]⟩ : Shape).Idx := ⟨fun a b => funext fun d => d.elim0⟩

/-- The bound of the test is +inf. -/
theorem posInf_f32 : Ideal.ofBits .f32 0x7F800000#32 = (⊤ : EReal) := by simp [Ideal.ofBits, Ideal.ieee]

/-- An extended real whose absolute value is below +inf is a real number. -/
theorem real_of_test (v : EReal) (h : Ideal.cmp .olt (max v (-v)) (Ideal.ofBits .f32 0x7F800000#32) = 1#1) :
    ∃ r : ℝ, v = r := by
  rw [posInf_f32] at h
  induction v using EReal.rec with
  | bot => simp [Ideal.cmp] at h
  | coe r => exact ⟨r, rfl⟩
  | top => simp [Ideal.cmp] at h

/-- One argument's test, passed, makes every entry of that argument real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hpos : 0 < (⟨0, ![]⟩ : Shape).numel)
    (h : Host.reduce IntOp.andi
      (cmpf .olt (Host.absf (F := Ideal) a) (broadcastInDim s ![] hb (constant (F := Ideal) ⟨0, ![]⟩ .f32 0x7F800000#32)))
      (constantI ⟨0, ![]⟩ 1 1#1) hr hpos ix0 = 1#1) (i : s.Idx) : ∃ r : ℝ, a i = r :=
  real_of_test (a i) (Host.reduce_andi_all _ _ hr hpos ix0 h i)

end Cert.LibRealOfTest

end
-- ==== Proof.PreReal.lean ====
/-
  The precondition, decoded: both embedding tables hold real numbers.

  The precondition tests, for each of the two float arguments, that every absolute value is below plus infinity, and
  takes the conjunction of the two tests. Over the extended reals an entry passes exactly when it is a real number.
-/
import proofs.«101089_j38465727103247_2_alg».proof.Defs
import proofs.«101089_j38465727103247_2_alg».proof.Proof.Gen.Pre_finite_inputs
import proofs.«101089_j38465727103247_2_alg».proof.Proof.LibRealOfTest
import Idealize.ShloMosaic.Lib.Affine

noncomputable section

open Idealize.ShloMosaic Idealize.ShloMosaic.ValueIdx

namespace Cert.FiniteTables

open Cert.Pre_finite_inputs

/-- If the finiteness test of the ten arguments is all ones, every entry of the two tables is a real number. -/
theorem real_of_pre (a0 : FVec Ideal S14952x256 .f32) (a1 : FVec Ideal S1346x256 .f32)
    (a2 a3 a4 a5 a6 a7 : IVec S16384 32) (a8 : IVec S16384x10x2 32) (a9 : IVec S16384x10x3 32)
    (h : Cert.Pre_finite_inputs.fn (F := Ideal) a0 a1 a2 a3 a4 a5 a6 a7 a8 a9 = fun _ => 1#1) :
    (∀ i, ∃ r : ℝ, a0 i = r) ∧ (∀ i, ∃ r : ℝ, a1 i = r) := by
  have e := congrFun h ix0
  unfold Cert.Pre_finite_inputs.fn at e
  obtain ⟨e0, e1⟩ := IntOp.andi_eq_one.mp e
  exact ⟨fun i => LibRealOfTest.real_of_all a0 _ _ _ e0 i, fun i => LibRealOfTest.real_of_all a1 _ _ _ e1 i⟩

end Cert.FiniteTables

end
-- ==== Proof.lean ====
/-
  The margin ranking loss of an attention-weighted knowledge-graph model: a row-tiled kernel against its whole-array
  reference, equal over the extended reals.

  Both programs gather the same embedding rows on the host. The kernel call then walks the 16384 batch rows in 64 blocks
  of 256: for each row of a block it computes three hinge terms (a softmax-weighted mix of ten neighbour context rows and
  of ten path context rows, each compared with two embeddings by negated Euclidean norms, and a plain triple score), adds
  their sum to a one-column accumulator carried from block to block, and after the last block hands the accumulated
  column to the host, which sums it. The reference computes the same three hinge terms for all rows at once and adds
  three totals.

  Every operation acts on a batch row by itself, so row p of block t of the kernel sees exactly the data of batch row
  t * 256 + p of the reference (Proof/KernelRows, Proof/RefRows, Proof/KernelWindows, Proof/HostBridge). Two things
  differ. The kernel program forms the neighbour context differences as nt - nr and the reference as -(nr - nt): on the
  extended reals these agree for real entries only, and the entries are gathered from tables that the precondition makes
  real (Proof/PreReal). And the kernel's total is regrouped: a sum over positions of sums over blocks of sums of three
  terms, against three sums over all rows; sums of extended reals may be regrouped freely (Proof/Spec, Proof/Equal).

  The three frames are the generated frame certificates of the two kernel programs and the reference's generated run;
  the ideal pass rewrote nothing, so the kernel's idealization is its own text.
-/
import proofs.«101089_j38465727103247_2_alg».proof.Defs
import proofs.«101089_j38465727103247_2_alg».proof.Proof.Gen.Kernel
import proofs.«101089_j38465727103247_2_alg».proof.Proof.Gen.Kernel.Skeleton
import proofs.«101089_j38465727103247_2_alg».proof.Proof.Gen.Kernel.Launch
import proofs.«101089_j38465727103247_2_alg».proof.Proof.Gen.Kernel.Points
import proofs.«101089_j38465727103247_2_alg».proof.Proof.Gen.Kernel.Frame
import proofs.«101089_j38465727103247_2_alg».proof.Proof.Gen.KernelIdeal
import proofs.«101089_j38465727103247_2_alg».proof.Proof.Gen.KernelIdeal.Skeleton
import proofs.«101089_j38465727103247_2_alg».proof.Proof.Gen.KernelIdeal.Launch
import proofs.«101089_j38465727103247_2_alg».proof.Proof.Gen.KernelIdeal.Points
import proofs.«101089_j38465727103247_2_alg».proof.Proof.Gen.KernelIdeal.Frame
import proofs.«101089_j38465727103247_2_alg».proof.Proof.Gen.ReferenceIdeal
import proofs.«101089_j38465727103247_2_alg».proof.Proof.Gen.ReferenceIdeal.Run
import proofs.«101089_j38465727103247_2_alg».proof.Proof.Gen.Pre_finite_inputs
import proofs.«101089_j38465727103247_2_alg».proof.Proof.KernelRun
import proofs.«101089_j38465727103247_2_alg».proof.Proof.Equal
import proofs.«101089_j38465727103247_2_alg».proof.Proof.PreReal
import Idealize.ShloMosaic.Adequacy
import Idealize.ShloMosaic.Init

set_option maxRecDepth 16384

open scoped BigOperators

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 2000000 in
/-- From memories that agree on the arguments, with real tables, both programs end at the same extended real: the
    kernel program at the host's sum of the accumulated column, the reference at its three totals. -/
theorem algebraic : Cert.algebraic_KernelIdeal_ReferenceIdeal := by
  intro m ρ m' ρ' hpre hagree
  refine ⟨fun c => Cert.KernelIdeal.Final.kernelResult m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  have hag : Cert.Bridge.Agrees m c (launchContents m' c) :=
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2⟩
  have hreal := Cert.FiniteTables.real_of_pre _ _ _ _ _ _ _ _ _ _ (hpre c)
  exact Cert.Bridge.ref_eq_kernel m c (launchContents m' c) hag hreal.1 hreal.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
